-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S65536x1 : Shape := ⟨2, ![65536, 1]⟩
abbrev S65536x256 : Shape := ⟨2, ![65536, 256]⟩
abbrev S6x256x256 : Shape := ⟨3, ![6, 256, 256]⟩
abbrev S6x256x128 : Shape := ⟨3, ![6, 256, 128]⟩
abbrev S5x256x256 : Shape := ⟨3, ![5, 256, 256]⟩
abbrev S256x1 : Shape := ⟨2, ![256, 1]⟩
abbrev S6x256 : Shape := ⟨2, ![6, 256]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S65536x1 : S_.BroadcastsInDim S65536x1 (![] : Fin 0 → Fin S65536x1.rank)
  reducesTo_S65536x1_S_d0_1 : S65536x1.ReducesTo [0, 1] S_
  bcast_S_S65536x256 : S_.BroadcastsInDim S65536x256 (![] : Fin 0 → Fin S65536x256.rank)
  reducesTo_S65536x256_S_d0_1 : S65536x256.ReducesTo [0, 1] S_
  bcast_S_S6x256x256 : S_.BroadcastsInDim S6x256x256 (![] : Fin 0 → Fin S6x256x256.rank)
  reducesTo_S6x256x256_S_d0_1_2 : S6x256x256.ReducesTo [0, 1, 2] S_
  bcast_S_S6x256x128 : S_.BroadcastsInDim S6x256x128 (![] : Fin 0 → Fin S6x256x128.rank)
  reducesTo_S6x256x128_S_d0_1_2 : S6x256x128.ReducesTo [0, 1, 2] S_
  bcast_S_S5x256x256 : S_.BroadcastsInDim S5x256x256 (![] : Fin 0 → Fin S5x256x256.rank)
  reducesTo_S5x256x256_S_d0_1_2 : S5x256x256.ReducesTo [0, 1, 2] S_
  bcast_S_S256x1 : S_.BroadcastsInDim S256x1 (![] : Fin 0 → Fin S256x1.rank)
  reducesTo_S256x1_S_d0_1 : S256x1.ReducesTo [0, 1] S_
  bcast_S_S6x256 : S_.BroadcastsInDim S6x256 (![] : Fin 0 → Fin S6x256.rank)
  reducesTo_S6x256_S_d0_1 : S6x256.ReducesTo [0, 1] S_

variable [Facts]

def fn_part2 {F : FTy → Type} [FloatOps F] (main_arg7 : FVec F S256x1 .f32) (main_arg8 : FVec F S6x256 .f32) (main_v33 : IVec S_ 1) : IVec S_ 1 :=
  let main_v34 : FVec F S256x1 .f32 := Host.absf main_arg7
  let main_cst_12 : FVec F S_ .f32 := constant S_ .f32 0x7F800000#32
  let main_v35 : FVec F S256x1 .f32 := broadcastInDim S256x1 ![] bcast_S_S256x1 main_cst_12
  let main_v36 : IVec S256x1 1 := cmpf .olt main_v34 main_v35
  let main_c_13 : IVec S_ 1 := constantI S_ 1 1#1
  let main_v37 : IVec S_ 1 := (fun x v => Host.reduce IntOp.andi x v reducesTo_S256x1_S_d0_1 h_S_) main_v36 main_c_13
  let main_v38 : IVec S_ 1 := andi main_v33 main_v37
  let main_v39 : FVec F S6x256 .f32 := Host.absf main_arg8
  let main_cst_14 : FVec F S_ .f32 := constant S_ .f32 0x7F800000#32
  let main_v40 : FVec F S6x256 .f32 := broadcastInDim S6x256 ![] bcast_S_S6x256 main_cst_14
  let main_v41 : IVec S6x256 1 := cmpf .olt main_v39 main_v40
  let main_c_15 : IVec S_ 1 := constantI S_ 1 1#1
  let main_v42 : IVec S_ 1 := (fun x v => Host.reduce IntOp.andi x v reducesTo_S6x256_S_d0_1 h_S_) main_v41 main_c_15
  let main_v43 : IVec S_ 1 := andi main_v38 main_v42
  main_v43

def fn_part1 {F : FTy → Type} [FloatOps F] (main_arg4 : FVec F S6x256x256 .f32) (main_arg5 : FVec F S6x256x128 .f32) (main_arg6 : FVec F S5x256x256 .f32) (main_arg7 : FVec F S256x1 .f32) (main_arg8 : FVec F S6x256 .f32) (main_v13 : IVec S_ 1) (main_v16 : IVec S65536x256 1) : IVec S_ 1 :=
  let main_c_5 : IVec S_ 1 := constantI S_ 1 1#1
  let main_v17 : IVec S_ 1 := (fun x v => Host.reduce IntOp.andi x v reducesTo_S65536x256_S_d0_1 h_S_) main_v16 main_c_5
  let main_v18 : IVec S_ 1 := andi main_v13 main_v17
  let main_v19 : FVec F S6x256x256 .f32 := Host.absf main_arg4
  let main_cst_6 : FVec F S_ .f32 := constant S_ .f32 0x7F800000#32
  let main_v20 : FVec F S6x256x256 .f32 := broadcastInDim S6x256x256 ![] bcast_S_S6x256x256 main_cst_6
  let main_v21 : IVec S6x256x256 1 := cmpf .olt main_v19 main_v20
  let main_c_7 : IVec S_ 1 := constantI S_ 1 1#1
  let main_v22 : IVec S_ 1 := (fun x v => Host.reduce IntOp.andi x v reducesTo_S6x256x256_S_d0_1_2 h_S_) main_v21 main_c_7
  let main_v23 : IVec S_ 1 := andi main_v18 main_v22
  let main_v24 : FVec F S6x256x128 .f32 := Host.absf main_arg5
  let main_cst_8 : FVec F S_ .f32 := constant S_ .f32 0x7F800000#32
  let main_v25 : FVec F S6x256x128 .f32 := broadcastInDim S6x256x128 ![] bcast_S_S6x256x128 main_cst_8
  let main_v26 : IVec S6x256x128 1 := cmpf .olt main_v24 main_v25
  let main_c_9 : IVec S_ 1 := constantI S_ 1 1#1
  let main_v27 : IVec S_ 1 := (fun x v => Host.reduce IntOp.andi x v reducesTo_S6x256x128_S_d0_1_2 h_S_) main_v26 main_c_9
  let main_v28 : IVec S_ 1 := andi main_v23 main_v27
  let main_v29 : FVec F S5x256x256 .f32 := Host.absf main_arg6
  let main_cst_10 : FVec F S_ .f32 := constant S_ .f32 0x7F800000#32
  let main_v30 : FVec F S5x256x256 .f32 := broadcastInDim S5x256x256 ![] bcast_S_S5x256x256 main_cst_10
  let main_v31 : IVec S5x256x256 1 := cmpf .olt main_v29 main_v30
  let main_c_11 : IVec S_ 1 := constantI S_ 1 1#1
  let main_v32 : IVec S_ 1 := (fun x v => Host.reduce IntOp.andi x v reducesTo_S5x256x256_S_d0_1_2 h_S_) main_v31 main_c_11
  let main_v33 : IVec S_ 1 := andi main_v28 main_v32
  fn_part2 (F := F) main_arg7 main_arg8 main_v33

def fn {F : FTy → Type} [FloatOps F] (main_arg0 : FVec F S65536x128 .f32) (main_arg1 : FVec F S65536x1 .f32) (main_arg2 : FVec F S65536x256 .f32) (main_arg3 : FVec F S65536x256 .f32) (main_arg4 : FVec F S6x256x256 .f32) (main_arg5 : FVec F S6x256x128 .f32) (main_arg6 : FVec F S5x256x256 .f32) (main_arg7 : FVec F S256x1 .f32) (main_arg8 : FVec F S6x256 .f32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S65536x1 .f32 := Host.absf main_arg1
  let main_cst_0 : FVec F S_ .f32 := constant S_ .f32 0x7F800000#32
  let main_v5 : FVec F S65536x1 .f32 := broadcastInDim S65536x1 ![] bcast_S_S65536x1 main_cst_0
  let main_v6 : IVec S65536x1 1 := cmpf .olt main_v4 main_v5
  let main_c_1 : IVec S_ 1 := constantI S_ 1 1#1
  let main_v7 : IVec S_ 1 := (fun x v => Host.reduce IntOp.andi x v reducesTo_S65536x1_S_d0_1 h_S_) main_v6 main_c_1
  let main_v8 : IVec S_ 1 := andi main_v3 main_v7
  let main_v9 : FVec F S65536x256 .f32 := Host.absf main_arg2
  let main_cst_2 : FVec F S_ .f32 := constant S_ .f32 0x7F800000#32
  let main_v10 : FVec F S65536x256 .f32 := broadcastInDim S65536x256 ![] bcast_S_S65536x256 main_cst_2
  let main_v11 : IVec S65536x256 1 := cmpf .olt main_v9 main_v10
  let main_c_3 : IVec S_ 1 := constantI S_ 1 1#1
  let main_v12 : IVec S_ 1 := (fun x v => Host.reduce IntOp.andi x v reducesTo_S65536x256_S_d0_1 h_S_) main_v11 main_c_3
  let main_v13 : IVec S_ 1 := andi main_v8 main_v12
  let main_v14 : FVec F S65536x256 .f32 := Host.absf main_arg3
  let main_cst_4 : FVec F S_ .f32 := constant S_ .f32 0x7F800000#32
  let main_v15 : FVec F S65536x256 .f32 := broadcastInDim S65536x256 ![] bcast_S_S65536x256 main_cst_4
  let main_v16 : IVec S65536x256 1 := cmpf .olt main_v14 main_v15
  fn_part1 (F := F) main_arg4 main_arg5 main_arg6 main_arg7 main_arg8 main_v13 main_v16
-- ==== Kernel.lean ====
abbrev S65536x128 : Shape := ⟨2, ![65536, 128]⟩
abbrev S65536x1 : Shape := ⟨2, ![65536, 1]⟩
abbrev S65536x256 : Shape := ⟨2, ![65536, 256]⟩
abbrev S6x256x256 : Shape := ⟨3, ![6, 256, 256]⟩
abbrev S6x256x128 : Shape := ⟨3, ![6, 256, 128]⟩
abbrev S5x256x256 : Shape := ⟨3, ![5, 256, 256]⟩
abbrev S256x1 : Shape := ⟨2, ![256, 1]⟩
abbrev S6x256 : Shape := ⟨2, ![6, 256]⟩
abbrev S256x6x256 : Shape := ⟨3, ![256, 6, 256]⟩
abbrev S256x1536 : Shape := ⟨2, ![256, 1536]⟩
abbrev S128x6x256 : Shape := ⟨3, ![128, 6, 256]⟩
abbrev S128x1536 : Shape := ⟨2, ![128, 1536]⟩
abbrev S256x5x256 : Shape := ⟨3, ![256, 5, 256]⟩
abbrev S256x1280 : Shape := ⟨2, ![256, 1280]⟩
abbrev S1x256 : Shape := ⟨2, ![1, 256]⟩
abbrev S512x128 : Shape := ⟨2, ![512, 128]⟩
abbrev S512x1 : Shape := ⟨2, ![512, 1]⟩
abbrev S512x256 : Shape := ⟨2, ![512, 256]⟩
abbrev S512x1536 : Shape := ⟨2, ![512, 1536]⟩
abbrev S256 : Shape := ⟨1, ![256]⟩
abbrev S512x1280 : Shape := ⟨2, ![512, 1280]⟩

abbrev nBuf : Space → Nat
  | .hbm => 21
  | .vmem => 17
  | .smem => 0
  | _ => 0

abbrev bufTy : (tb : Table) → Fin (tcTables nBuf tb) → BufTy
  | .hbm, ⟨0, _⟩ => ⟨S65536x128, .f32⟩
  | .hbm, ⟨1, _⟩ => ⟨S65536x1, .f32⟩
  | .hbm, ⟨2, _⟩ => ⟨S65536x256, .f32⟩
  | .hbm, ⟨3, _⟩ => ⟨S65536x256, .f32⟩
  | .hbm, ⟨4, _⟩ => ⟨S6x256x256, .f32⟩
  | .hbm, ⟨5, _⟩ => ⟨S6x256x128, .f32⟩
  | .hbm, ⟨6, _⟩ => ⟨S5x256x256, .f32⟩
  | .hbm, ⟨7, _⟩ => ⟨S256x1, .f32⟩
  | .hbm, ⟨8, _⟩ => ⟨S6x256, .f32⟩
  | .hbm, ⟨9, _⟩ => ⟨S256x6x256, .f32⟩
  | .hbm, ⟨10, _⟩ => ⟨S256x1536, .f32⟩
  | .hbm, ⟨11, _⟩ => ⟨S256x1536, .bf16⟩
  | .hbm, ⟨12, _⟩ => ⟨S128x6x256, .f32⟩
  | .hbm, ⟨13, _⟩ => ⟨S128x1536, .f32⟩
  | .hbm, ⟨14, _⟩ => ⟨S128x1536, .bf16⟩
  | .hbm, ⟨15, _⟩ => ⟨S256x5x256, .f32⟩
  | .hbm, ⟨16, _⟩ => ⟨S256x1280, .f32⟩
  | .hbm, ⟨17, _⟩ => ⟨S256x1280, .bf16⟩
  | .hbm, ⟨18, _⟩ => ⟨S1x256, .f32⟩
  | .hbm, ⟨19, _⟩ => ⟨S65536x256, .f32⟩
  | .hbm, ⟨20, _⟩ => ⟨S65536x256, .f32⟩
  | .local _ .vmem, ⟨0, _⟩ => ⟨S512x128, .f32⟩
  | .local _ .vmem, ⟨1, _⟩ => ⟨S512x128, .f32⟩
  | .local _ .vmem, ⟨2, _⟩ => ⟨S512x1, .f32⟩
  | .local _ .vmem, ⟨3, _⟩ => ⟨S512x1, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S256x1536, .bf16⟩
  | .local _ .vmem, ⟨9, _⟩ => ⟨S128x1536, .bf16⟩
  | .local _ .vmem, ⟨10, _⟩ => ⟨S256x1280, .bf16⟩
  | .local _ .vmem, ⟨11, _⟩ => ⟨S1x256, .f32⟩
  | .local _ .vmem, ⟨12, _⟩ => ⟨S6x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1280 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S6x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  transposes_S6x256x256_S256x6x256_2_0_1 : S6x256x256.Transposes [2, 0, 1] S256x6x256
  shapeCasts_S256x6x256_S256x1536 : S256x6x256.ShapeCasts S256x1536
  bitsLt_bf16_f32 : FTy.bits .bf16 < FTy.bits .f32
  transposes_S6x256x128_S128x6x256_2_0_1 : S6x256x128.Transposes [2, 0, 1] S128x6x256
  shapeCasts_S128x6x256_S128x1536 : S128x6x256.ShapeCasts S128x1536
  transposes_S5x256x256_S256x5x256_2_0_1 : S5x256x256.Transposes [2, 0, 1] S256x5x256
  shapeCasts_S256x5x256_S256x1280 : S256x5x256.ShapeCasts S256x1280
  transposes_S256x1_S1x256_1_0 : S256x1.Transposes [1, 0] S1x256
  inb_S512x128_S512x128_0_0 : ∀ a, (![0, 0] : Fin 2 → Nat) a + S512x128.size a ≤ S512x128.size a
  h_S512x128 : 0 < S512x128.numel
  inb_S512x256_S512x256_0_0 : ∀ a, (![0, 0] : Fin 2 → Nat) a + S512x256.size a ≤ S512x256.size a
  h_S512x256 : 0 < S512x256.numel
  inb_S256x1536_S256x1536_0_0 : ∀ a, (![0, 0] : Fin 2 → Nat) a + S256x1536.size a ≤ S256x1536.size a
  h_S256x1536 : 0 < S256x1536.numel
  shapeCasts_S256x1536_S256x1536 : S256x1536.ShapeCasts S256x1536
  inb_S128x1536_S128x1536_0_0 : ∀ a, (![0, 0] : Fin 2 → Nat) a + S128x1536.size a ≤ S128x1536.size a
  h_S128x1536 : 0 < S128x1536.numel
  shapeCasts_S128x1536_S128x1536 : S128x1536.ShapeCasts S128x1536
  inb_S512x1_S512x1_0_0 : ∀ a, (![0, 0] : Fin 2 → Nat) a + S512x1.size a ≤ S512x1.size a
  h_S512x1 : 0 < S512x1.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  slices_S512x1536_o0_0_S512x256 : S512x1536.Slices ![0, 0] S512x256
  broadcasts_S512x1_S512x256 : S512x1.Broadcasts S512x256
  broadcasts_S1x256_S512x256 : S1x256.Broadcasts S512x256
  inb_S6x256_S1x256_0_0 : ∀ a, (![0, 0] : Fin 2 → Nat) a + S1x256.size a ≤ S6x256.size a
  shapeCasts_S1x256_S256 : S1x256.ShapeCasts S256
  shapeCasts_S256_S1x256 : S256.ShapeCasts S1x256
  inb_S256x1280_S256x1280_0_0 : ∀ a, (![0, 0] : Fin 2 → Nat) a + S256x1280.size a ≤ S256x1280.size a
  h_S256x1280 : 0 < S256x1280.numel
  shapeCasts_S256x1280_S256x1280 : S256x1280.ShapeCasts S256x1280
  slices_S512x1536_o0_256_S512x256 : S512x1536.Slices ![0, 256] S512x256
  slices_S512x1280_o0_0_S512x256 : S512x1280.Slices ![0, 0] S512x256
  inb_S6x256_S1x256_1_0 : ∀ a, (![1, 0] : Fin 2 → Nat) a + S1x256.size a ≤ S6x256.size a
  slices_S512x1536_o0_512_S512x256 : S512x1536.Slices ![0, 512] S512x256
  slices_S512x1280_o0_256_S512x256 : S512x1280.Slices ![0, 256] S512x256
  inb_S6x256_S1x256_2_0 : ∀ a, (![2, 0] : Fin 2 → Nat) a + S1x256.size a ≤ S6x256.size a
  slices_S512x1536_o0_768_S512x256 : S512x1536.Slices ![0, 768] S512x256
  slices_S512x1280_o0_512_S512x256 : S512x1280.Slices ![0, 512] S512x256
  inb_S6x256_S1x256_3_0 : ∀ a, (![3, 0] : Fin 2 → Nat) a + S1x256.size a ≤ S6x256.size a
  slices_S512x1536_o0_1024_S512x256 : S512x1536.Slices ![0, 1024] S512x256
  slices_S512x1280_o0_768_S512x256 : S512x1280.Slices ![0, 768] S512x256
  inb_S6x256_S1x256_4_0 : ∀ a, (![4, 0] : Fin 2 → Nat) a + S1x256.size a ≤ S6x256.size a
  slices_S512x1536_o0_1280_S512x256 : S512x1536.Slices ![0, 1280] S512x256
  slices_S512x1280_o0_1024_S512x256 : S512x1280.Slices ![0, 1024] S512x256
  inb_S6x256_S1x256_5_0 : ∀ a, (![5, 0] : Fin 2 → Nat) a + S1x256.size a ≤ S6x256.size a
  dot_S512x256_S256x1536_S512x1536_1_0_0_1_n_n_wf : DotDims.WF S512x256 S256x1536 S512x1536 [1] [0] [0] [1] [] []
  dot_S512x128_S128x1536_S512x1536_1_0_0_1_n_n_wf : DotDims.WF S512x128 S128x1536 S512x1536 [1] [0] [0] [1] [] []
  dot_S512x256_S256x1280_S512x1280_1_0_0_1_n_n_wf : DotDims.WF S512x256 S256x1280 S512x1280 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S65536x128.size a
  hwx0_0 : ∀ i : grid0.Coords, EltTy.bits .f32 = 32 ∨ (Rect.block (s := S65536x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S65536x1.size a
  hwx0_1 : ∀ i : grid0.Coords, EltTy.bits .f32 = 32 ∨ (Rect.block (s := S65536x1) S512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S65536x256.size a
  hwx0_2 : ∀ i : grid0.Coords, EltTy.bits .f32 = 32 ∨ (Rect.block (s := S65536x256) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S65536x256.size a
  hwx0_3 : ∀ i : grid0.Coords, EltTy.bits .f32 = 32 ∨ (Rect.block (s := S65536x256) S512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1536.size a ≤ S256x1536.size a
  hwx0_4 : ∀ i : grid0.Coords, EltTy.bits .bf16 = 32 ∨ (Rect.block (s := S256x1536) S256x1536.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x1536.size a ≤ S128x1536.size a
  hwx0_5 : ∀ i : grid0.Coords, EltTy.bits .bf16 = 32 ∨ (Rect.block (s := S128x1536) S128x1536.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x1280.size a ≤ S256x1280.size a
  hwx0_6 : ∀ i : grid0.Coords, EltTy.bits .bf16 = 32 ∨ (Rect.block (s := S256x1280) S256x1280.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S6x256.size a ≤ S6x256.size a
  hwx0_8 : ∀ i : grid0.Coords, EltTy.bits .f32 = 32 ∨ (Rect.block (s := S6x256) S6x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x256.size a ≤ S65536x256.size a
  hwx0_9 : ∀ i : grid0.Coords, EltTy.bits .f32 = 32 ∨ (Rect.block (s := S65536x256) S512x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x256.size a ≤ S65536x256.size a
  hwx0_10 : ∀ i : grid0.Coords, EltTy.bits .f32 = 32 ∨ (Rect.block (s := S65536x256) S512x256.size (cc0_transform_10 i) (hinb0_10 i)).WholeWords (EltTy.packing .f32)

variable [Facts₀]

def dot_S512x256_S256x1536_S512x1536_1_0_0_1_n_n : DotDims S512x256 S256x1536 S512x1536 where
  lhsContracting := [1]
  rhsContracting := [0]
  lhsNonContracting := [0]
  rhsNonContracting := [1]
  lhsBatch := []
  rhsBatch := []
  wf := dot_S512x256_S256x1536_S512x1536_1_0_0_1_n_n_wf
def dot_S512x128_S128x1536_S512x1536_1_0_0_1_n_n : DotDims S512x128 S128x1536 S512x1536 where
  lhsContracting := [1]
  rhsContracting := [0]
  lhsNonContracting := [0]
  rhsNonContracting := [1]
  lhsBatch := []
  rhsBatch := []
  wf := dot_S512x128_S128x1536_S512x1536_1_0_0_1_n_n_wf
def dot_S512x256_S256x1280_S512x1280_1_0_0_1_n_n : DotDims S512x256 S256x1280 S512x1280 where
  lhsContracting := [1]
  rhsContracting := [0]
  lhsNonContracting := [0]
  rhsNonContracting := [1]
  lhsBatch := []
  rhsBatch := []
  wf := dot_S512x256_S256x1280_S512x1280_1_0_0_1_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S256x1536.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S128x1536.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S256x1280.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S6x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10_0) S512x256.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v10_1) S512x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S65536x128 : Shape := ⟨2, ![65536, 128]⟩
abbrev S65536x1 : Shape := ⟨2, ![65536, 1]⟩
abbrev S65536x256 : Shape := ⟨2, ![65536, 256]⟩
abbrev S6x256x256 : Shape := ⟨3, ![6, 256, 256]⟩
abbrev S6x256x128 : Shape := ⟨3, ![6, 256, 128]⟩
abbrev S5x256x256 : Shape := ⟨3, ![5, 256, 256]⟩
abbrev S256x1 : Shape := ⟨2, ![256, 1]⟩
abbrev S6x256 : Shape := ⟨2, ![6, 256]⟩
abbrev S6x256x65536 : Shape := ⟨3, ![6, 256, 65536]⟩
abbrev S6x65536x256 : Shape := ⟨3, ![6, 65536, 256]⟩
abbrev S1x65536x256 : Shape := ⟨3, ![1, 65536, 256]⟩
abbrev S1x256 : Shape := ⟨2, ![1, 256]⟩
abbrev S256 : Shape := ⟨1, ![256]⟩
abbrev S5x256x65536 : Shape := ⟨3, ![5, 256, 65536]⟩
abbrev S5x65536x256 : Shape := ⟨3, ![5, 65536, 256]⟩
abbrev S5x256 : Shape := ⟨2, ![5, 256]⟩
abbrev S5x1x256 : Shape := ⟨3, ![5, 1, 256]⟩
abbrev S_ : Shape := ⟨0, ![]⟩

abbrev nBuf : Space → Nat
  | .hbm => 87
  | .vmem => 0
  | .smem => 0
  | _ => 0

abbrev bufTy : (tb : Table) → Fin (tcTables nBuf tb) → BufTy
  | .hbm, ⟨0, _⟩ => ⟨S65536x128, .f32⟩
  | .hbm, ⟨1, _⟩ => ⟨S65536x1, .f32⟩
  | .hbm, ⟨2, _⟩ => ⟨S65536x256, .f32⟩
  | .hbm, ⟨3, _⟩ => ⟨S65536x256, .f32⟩
  | .hbm, ⟨4, _⟩ => ⟨S6x256x256, .f32⟩
  | .hbm, ⟨5, _⟩ => ⟨S6x256x128, .f32⟩
  | .hbm, ⟨6, _⟩ => ⟨S5x256x256, .f32⟩
  | .hbm, ⟨7, _⟩ => ⟨S256x1, .f32⟩
  | .hbm, ⟨8, _⟩ => ⟨S6x256, .f32⟩
  | .hbm, ⟨9, _⟩ => ⟨S6x256x65536, .f32⟩
  | .hbm, ⟨10, _⟩ => ⟨S6x65536x256, .f32⟩
  | .hbm, ⟨11, _⟩ => ⟨S6x256x65536, .f32⟩
  | .hbm, ⟨12, _⟩ => ⟨S6x65536x256, .f32⟩
  | .hbm, ⟨13, _⟩ => ⟨S1x65536x256, .f32⟩
  | .hbm, ⟨14, _⟩ => ⟨S65536x256, .f32⟩
  | .hbm, ⟨15, _⟩ => ⟨S1x65536x256, .f32⟩
  | .hbm, ⟨16, _⟩ => ⟨S65536x256, .f32⟩
  | .hbm, ⟨17, _⟩ => ⟨S65536x256, .f32⟩
  | .hbm, ⟨18, _⟩ => ⟨S1x256, .f32⟩
  | .hbm, ⟨19, _⟩ => ⟨S65536x256, .f32⟩
  | .hbm, ⟨20, _⟩ => ⟨S65536x256, .f32⟩
  | .hbm, ⟨21, _⟩ => ⟨S1x256, .f32⟩
  | .hbm, ⟨22, _⟩ => ⟨S256, .f32⟩
  | .hbm, ⟨23, _⟩ => ⟨S1x256, .f32⟩
  | .hbm, ⟨24, _⟩ => ⟨S65536x256, .f32⟩
  | .hbm, ⟨25, _⟩ => ⟨S65536x256, .f32⟩
  | .hbm, ⟨26, _⟩ => ⟨S65536x256, .f32⟩
  | .hbm, ⟨27, _⟩ => ⟨S5x256x65536, .f32⟩
  | .hbm, ⟨28, _⟩ => ⟨S5x65536x256, .f32⟩
  | .hbm, ⟨29, _⟩ => ⟨S5x65536x256, .f32⟩
  | .hbm, ⟨30, _⟩ => ⟨S5x65536x256, .f32⟩
  | .hbm, ⟨31, _⟩ => ⟨S5x65536x256, .f32⟩
  | .hbm, ⟨32, _⟩ => ⟨S5x65536x256, .f32⟩
  | .hbm, ⟨33, _⟩ => ⟨S5x256, .f32⟩
  | .hbm, ⟨34, _⟩ => ⟨S5x1x256, .f32⟩
  | .hbm, ⟨35, _⟩ => ⟨S5x65536x256, .f32⟩
  | .hbm, ⟨36, _⟩ => ⟨S5x65536x256, .f32⟩
  | .hbm, ⟨37, _⟩ => ⟨S1x65536x256, .f32⟩
  | .hbm, ⟨38, _⟩ => ⟨S65536x256, .f32⟩
  | .hbm, ⟨39, _⟩ => ⟨S65536x256, .f32⟩
  | .hbm, ⟨40, _⟩ => ⟨S65536x256, .f32⟩
  | .hbm, ⟨41, _⟩ => ⟨S_, .f32⟩
  | .hbm, ⟨42, _⟩ => ⟨S65536x256, .f32⟩
  | .hbm, ⟨43, _⟩ => ⟨S65536x256, .f32⟩
  | .hbm, ⟨44, _⟩ => ⟨S_, .f32⟩
  | .hbm, ⟨45, _⟩ => ⟨S65536x256, .f32⟩
  | .hbm, ⟨46, _⟩ => ⟨S65536x256, .f32⟩
  | .hbm, ⟨47, _⟩ => ⟨S1x65536x256, .f32⟩
  | .hbm, ⟨48, _⟩ => ⟨S65536x256, .f32⟩
  | .hbm, ⟨49, _⟩ => ⟨S65536x256, .f32⟩
  | .hbm, ⟨50, _⟩ => ⟨S65536x256, .f32⟩
  | .hbm, ⟨51, _⟩ => ⟨S_, .f32⟩
  | .hbm, ⟨52, _⟩ => ⟨S65536x256, .f32⟩
  | .hbm, ⟨53, _⟩ => ⟨S65536x256, .f32⟩
  | .hbm, ⟨54, _⟩ => ⟨S_, .f32⟩
  | .hbm, ⟨55, _⟩ => ⟨S65536x256, .f32⟩
  | .hbm, ⟨56, _⟩ => ⟨S65536x256, .f32⟩
  | .hbm, ⟨57, _⟩ => ⟨S1x65536x256, .f32⟩
  | .hbm, ⟨58, _⟩ => ⟨S65536x256, .f32⟩
  | .hbm, ⟨59, _⟩ => ⟨S65536x256, .f32⟩
  | .hbm, ⟨60, _⟩ => ⟨S65536x256, .f32⟩
  | .hbm, ⟨61, _⟩ => ⟨S_, .f32⟩
  | .hbm, ⟨62, _⟩ => ⟨S65536x256, .f32⟩
  | .hbm, ⟨63, _⟩ => ⟨S65536x256, .f32⟩
  | .hbm, ⟨64, _⟩ => ⟨S_, .f32⟩
  | .hbm, ⟨65, _⟩ => ⟨S65536x256, .f32⟩
  | .hbm, ⟨66, _⟩ => ⟨S65536x256, .f32⟩
  | .hbm, ⟨67, _⟩ => ⟨S1x65536x256, .f32⟩
  | .hbm, ⟨68, _⟩ => ⟨S65536x256, .f32⟩
  | .hbm, ⟨69, _⟩ => ⟨S65536x256, .f32⟩
  | .hbm, ⟨70, _⟩ => ⟨S1x65536x256, .f32⟩
  | .hbm, ⟨71, _⟩ => ⟨S65536x256, .f32⟩
  | .hbm, ⟨72, _⟩ => ⟨S65536x256, .f32⟩
  | .hbm, ⟨73, _⟩ => ⟨S65536x256, .f32⟩
  | .hbm, ⟨74, _⟩ => ⟨S_, .f32⟩
  | .hbm, ⟨75, _⟩ => ⟨S65536x256, .f32⟩
  | .hbm, ⟨76, _⟩ => ⟨S65536x256, .f32⟩
  | .hbm, ⟨77, _⟩ => ⟨S_, .f32⟩
  | .hbm, ⟨78, _⟩ => ⟨S65536x256, .f32⟩
  | .hbm, ⟨79, _⟩ => ⟨S65536x256, .f32⟩
  | .hbm, ⟨80, _⟩ => ⟨S65536x256, .f32⟩
  | .hbm, ⟨81, _⟩ => ⟨S65536x256, .f32⟩
  | .hbm, ⟨82, _⟩ => ⟨S65536x256, .f32⟩
  | .hbm, ⟨83, _⟩ => ⟨S65536x256, .f32⟩
  | .hbm, ⟨84, _⟩ => ⟨S65536x256, .f32⟩
  | .hbm, ⟨85, _⟩ => ⟨S65536x256, .f32⟩
  | .hbm, ⟨86, _⟩ => ⟨S65536x256, .f32⟩
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst : Ref sig .tc := ⟨.hbm, 41, rfl⟩
abbrev main_v32 : Ref sig .tc := ⟨.hbm, 42, rfl⟩
abbrev main_v33 : Ref sig .tc := ⟨.hbm, 43, rfl⟩
abbrev main_cst_0 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_1 : Ref sig .tc := ⟨.hbm, 51, rfl⟩
abbrev main_v40 : Ref sig .tc := ⟨.hbm, 52, rfl⟩
abbrev main_v41 : Ref sig .tc := ⟨.hbm, 53, rfl⟩
abbrev main_cst_2 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_3 : Ref sig .tc := ⟨.hbm, 61, rfl⟩
abbrev main_v48 : Ref sig .tc := ⟨.hbm, 62, rfl⟩
abbrev main_v49 : Ref sig .tc := ⟨.hbm, 63, rfl⟩
abbrev main_cst_4 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_5 : Ref sig .tc := ⟨.hbm, 74, rfl⟩
abbrev main_v59 : Ref sig .tc := ⟨.hbm, 75, rfl⟩
abbrev main_v60 : Ref sig .tc := ⟨.hbm, 76, rfl⟩
abbrev main_cst_6 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩

abbrev nD : Nat := 1
abbrev τ : Topo := Topo.v7x

variable {F : FTy → Type} [FloatOps F]

class Facts₀ : Prop where
  transposes_S6x256x65536_S6x65536x256_0_2_1 : S6x256x65536.Transposes [0, 2, 1] S6x65536x256
  slices_S6x65536x256_S1x65536x256_0_0_0 : S6x65536x256.Slices ![0, 0, 0] S1x65536x256
  shapeCasts_S1x65536x256_S65536x256 : S1x65536x256.ShapeCasts S65536x256
  transposes_S256x1_S1x256_1_0 : S256x1.Transposes [1, 0] S1x256
  slices_S6x256_S1x256_0_0 : S6x256.Slices ![0, 0] S1x256
  shapeCasts_S1x256_S256 : S1x256.ShapeCasts S256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  transposes_S5x256x65536_S5x65536x256_0_2_1 : S5x256x65536.Transposes [0, 2, 1] S5x65536x256
  slices_S6x65536x256_S5x65536x256_1_0_0 : S6x65536x256.Slices ![1, 0, 0] S5x65536x256
  slices_S6x256_S5x256_1_0 : S6x256.Slices ![1, 0] S5x256
  bcast_S5x256_S5x1x256_0_2 : S5x256.BroadcastsInDim S5x1x256 (![0, 2] : Fin 2 → Fin S5x1x256.rank)
  bcast_S5x1x256_S5x65536x256_0_1_2 : S5x1x256.BroadcastsInDim S5x65536x256 (![0, 1, 2] : Fin 3 → Fin S5x65536x256.rank)
  slices_S5x65536x256_S1x65536x256_0_0_0 : S5x65536x256.Slices ![0, 0, 0] S1x65536x256
  bcast_S_S65536x256 : S_.BroadcastsInDim S65536x256 (![] : Fin 0 → Fin S65536x256.rank)
  slices_S5x65536x256_S1x65536x256_1_0_0 : S5x65536x256.Slices ![1, 0, 0] S1x65536x256
  slices_S5x65536x256_S1x65536x256_2_0_0 : S5x65536x256.Slices ![2, 0, 0] S1x65536x256
  slices_S5x65536x256_S1x65536x256_3_0_0 : S5x65536x256.Slices ![3, 0, 0] S1x65536x256
  slices_S5x65536x256_S1x65536x256_4_0_0 : S5x65536x256.Slices ![4, 0, 0] S1x65536x256
  dot_S6x256x256_S65536x256_S6x256x65536_2_1_01_0_n_n_wf : DotDims.WF S6x256x256 S65536x256 S6x256x65536 [2] [1] [0, 1] [0] [] []
  dot_S6x256x128_S65536x128_S6x256x65536_2_1_01_0_n_n_wf : DotDims.WF S6x256x128 S65536x128 S6x256x65536 [2] [1] [0, 1] [0] [] []
  dot_S65536x1_S1x256_S65536x256_1_0_0_1_n_n_wf : DotDims.WF S65536x1 S1x256 S65536x256 [1] [0] [0] [1] [] []
  dot_S5x256x256_S65536x256_S5x256x65536_2_1_01_0_n_n_wf : DotDims.WF S5x256x256 S65536x256 S5x256x65536 [2] [1] [0, 1] [0] [] []

variable [Facts₀]

def dot_S6x256x256_S65536x256_S6x256x65536_2_1_01_0_n_n : DotDims S6x256x256 S65536x256 S6x256x65536 where
  lhsContracting := [2]
  rhsContracting := [1]
  lhsNonContracting := [0, 1]
  rhsNonContracting := [0]
  lhsBatch := []
  rhsBatch := []
  wf := dot_S6x256x256_S65536x256_S6x256x65536_2_1_01_0_n_n_wf
def dot_S6x256x128_S65536x128_S6x256x65536_2_1_01_0_n_n : DotDims S6x256x128 S65536x128 S6x256x65536 where
  lhsContracting := [2]
  rhsContracting := [1]
  lhsNonContracting := [0, 1]
  rhsNonContracting := [0]
  lhsBatch := []
  rhsBatch := []
  wf := dot_S6x256x128_S65536x128_S6x256x65536_2_1_01_0_n_n_wf
def dot_S65536x1_S1x256_S65536x256_1_0_0_1_n_n : DotDims S65536x1 S1x256 S65536x256 where
  lhsContracting := [1]
  rhsContracting := [0]
  lhsNonContracting := [0]
  rhsNonContracting := [1]
  lhsBatch := []
  rhsBatch := []
  wf := dot_S65536x1_S1x256_S65536x256_1_0_0_1_n_n_wf
def dot_S5x256x256_S65536x256_S5x256x65536_2_1_01_0_n_n : DotDims S5x256x256 S65536x256 S5x256x65536 where
  lhsContracting := [2]
  rhsContracting := [1]
  lhsNonContracting := [0, 1]
  rhsNonContracting := [0]
  lhsBatch := []
  rhsBatch := []
  wf := dot_S5x256x256_S65536x256_S5x256x65536_2_1_01_0_n_n_wf

class Facts : Prop extends Facts₀ where

variable [Facts]
-- ==== Proof.Spec.lean ====
/-
  The cell update, as functions of the argument arrays on the extended reals.

  For a batch row `r` and a hidden unit `o`, gate `g` (of six: the candidate state, then forget, input, time, update,
  output) has the linear part
      lin g r o = Σ_k h(r,k)·Wh(g,o,k) + Σ_k x(r,k)·Wx(g,o,k).
  The candidate state is  s(r,o) = tanh (lin 0 r o + δ(r)·Wst(o) + b(0,o)),  the other five gates add the candidate's
  own contribution and their bias,
      gate j r o = lin (j+1) r o + Σ_k s(r,k)·Ws(j,o,k) + b(j+1,o)      (j = 0 … 4),
  and the new cell and hidden states are
      c'(r,o) = σ(gate 0)·c(r,o) + σ(gate 1)·tanh(gate 3) + σ(gate 2)·s(r,o),      h'(r,o) = σ(gate 4)·tanh(c'(r,o)),
  with σ x = 1 / (1 + e^(−x)).
-/
import Idealize.ShloMosaic.PureOps.Ideal
import Idealize.ShloMosaic.Lib.ValueIdx

open scoped BigOperators
noncomputable section

namespace Cert.Cell

open Idealize.ShloMosaic Idealize.ShloMosaic.ValueIdx

/-- A rank-2 array of extended reals. -/
abbrev A2 (a b : Nat) : Type := (⟨2, ![a, b]⟩ : Shape).Idx → EReal
/-- A rank-3 array of extended reals. -/
abbrev A3 (a b c : Nat) : Type := (⟨3, ![a, b, c]⟩ : Shape).Idx → EReal

/-- The recurrent and the input contribution to gate `g` at row `r`, unit `o`. -/
def lin (x : A2 65536 128) (h : A2 65536 256) (Wh : A3 6 256 256) (Wx : A3 6 256 128)
    (g : Fin 6) (r : Fin 65536) (o : Fin 256) : EReal :=
  (∑ k : Fin 256, h (ix2 r k) * Wh (ix3 g o k)) + (∑ k : Fin 128, x (ix2 r k) * Wx (ix3 g o k))

/-- The candidate state. -/
def cand (x : A2 65536 128) (d : A2 65536 1) (h : A2 65536 256) (Wh : A3 6 256 256) (Wx : A3 6 256 128)
    (Wst : A2 256 1) (b : A2 6 256) (r : Fin 65536) (o : Fin 256) : EReal :=
  Ideal.tanh (lin x h Wh Wx 0 r o + d (ix2 r 0) * Wst (ix2 o 0) + b (ix2 0 o))

/-- Gate `j + 1` before its nonlinearity. -/
def gate (x : A2 65536 128) (d : A2 65536 1) (h : A2 65536 256) (Wh : A3 6 256 256) (Wx : A3 6 256 128)
    (Ws : A3 5 256 256) (Wst : A2 256 1) (b : A2 6 256) (j : Fin 5) (r : Fin 65536) (o : Fin 256) : EReal :=
  lin x h Wh Wx j.succ r o + (∑ k : Fin 256, cand x d h Wh Wx Wst b r k * Ws (ix3 j o k)) + b (ix2 j.succ o)

/-- The new cell state. -/
def cellNew (x : A2 65536 128) (d : A2 65536 1) (h c : A2 65536 256) (Wh : A3 6 256 256) (Wx : A3 6 256 128)
    (Ws : A3 5 256 256) (Wst : A2 256 1) (b : A2 6 256) (r : Fin 65536) (o : Fin 256) : EReal :=
  Ideal.logistic (gate x d h Wh Wx Ws Wst b 0 r o) * c (ix2 r o)
    + Ideal.logistic (gate x d h Wh Wx Ws Wst b 1 r o) * Ideal.tanh (gate x d h Wh Wx Ws Wst b 3 r o)
    + Ideal.logistic (gate x d h Wh Wx Ws Wst b 2 r o) * cand x d h Wh Wx Wst b r o

/-- The new hidden state. -/
def hiddenNew (x : A2 65536 128) (d : A2 65536 1) (h c : A2 65536 256) (Wh : A3 6 256 256) (Wx : A3 6 256 128)
    (Ws : A3 5 256 256) (Wst : A2 256 1) (b : A2 6 256) (r : Fin 65536) (o : Fin 256) : EReal :=
  Ideal.logistic (gate x d h Wh Wx Ws Wst b 4 r o) * Ideal.tanh (cellNew x d h c Wh Wx Ws Wst b r o)

/-- The new cell state as an array. -/
def cellArr (x : A2 65536 128) (d : A2 65536 1) (h c : A2 65536 256) (Wh : A3 6 256 256) (Wx : A3 6 256 128)
    (Ws : A3 5 256 256) (Wst : A2 256 1) (b : A2 6 256) : A2 65536 256 :=
  fun i => cellNew x d h c Wh Wx Ws Wst b (i 0) (i 1)

/-- The new hidden state as an array. -/
def hiddenArr (x : A2 65536 128) (d : A2 65536 1) (h c : A2 65536 256) (Wh : A3 6 256 256) (Wx : A3 6 256 128)
    (Ws : A3 5 256 256) (Wst : A2 256 1) (b : A2 6 256) : A2 65536 256 :=
  fun i => hiddenNew x d h c Wh Wx Ws Wst b (i 0) (i 1)

end Cert.Cell

end
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.KernelPoint.lean ====
/-
  One grid point of the kernel, read at one element.

  The kernel's body computes, for a tile of 512 batch rows, three matrix products against the gate weights laid side by
  side — the tile of `h` against a [256, 6·256] matrix whose column `g·256 + o` holds `Wh(g, o, ·)`, the tile of `x`
  against a [128, 6·256] one holding `Wx(g, o, ·)`, and the candidate state against a [256, 5·256] one holding
  `Ws(j, o, ·)` — and takes gate `g` as the 256 columns starting at `g·256`. Read at row `p` of the tile and unit `o`,
  each product is the sum over `k` of its row times its column, so each gate is the specification's gate at the batch
  row the tile's row `p` is, and the two stored blocks are the specification's new hidden and new cell state there.
  The statements take the tile's vectors as variables, with what each holds as hypotheses.
-/
import proofs.«136221_j57784490000883_2_alg».proof.Proof.Gen.KernelIdeal.Value
import proofs.«136221_j57784490000883_2_alg».proof.Proof.Spec
import proofs.«136221_j57784490000883_2_alg».proof.Proof.LibMatmul
import Idealize.ShloMosaic.Lib.ValueIdx
import Idealize.ShloMosaic.Lib.Pipeline.Value
import Idealize.ShloMosaic.PureOps.Ideal.Laws

open scoped BigOperators
noncomputable section

namespace Cert.Cell.Point

open Cert.KernelIdeal Cert.KernelIdeal.Gen Idealize.ShloMosaic Idealize.ShloMosaic.ValueIdx

/-! ## Rank-2 indices from their coordinates' values -/

theorem idx2_of_vals {n0 n1 : Nat} (i : (⟨2, ![n0, n1]⟩ : Shape).Idx) (a : Fin n0) (b : Fin n1)
    (h0 : (i 0).val = a.val) (h1 : (i 1).val = b.val) : i = ix2 a b := by
  funext d
  match d with
  | ⟨0, _⟩ => exact Fin.ext h0
  | ⟨1, _⟩ => exact Fin.ext h1

/-! ## The three matrix products at an element -/

theorem pay3_apply (P0 : Vec Ideal S512x256 .f32) (P1 : Vec Ideal S256x1536 .bf16) (p : Fin 512) (q : Fin 1536) :
    k0_pay3 (F := Ideal) P0 P1 (ix2 p q) = ∑ k : Fin 256, P0 (ix2 p k) * P1 (ix2 k q) := by
  unfold k0_pay3
  rw [shapeCast_self]
  exact Cert.MatOps.matmul_plain_zero_apply (M := 512) (K := 256) (N := 1536) none (truncf .bf16 P0 bitsLt_bf16_f32) P1 p q

theorem pay4_apply (P2 : Vec Ideal S512x128 .f32) (P3 : Vec Ideal S128x1536 .bf16) (p : Fin 512) (q : Fin 1536) :
    k0_pay4 (F := Ideal) P2 P3 (ix2 p q) = ∑ k : Fin 128, P2 (ix2 p k) * P3 (ix2 k q) := by
  unfold k0_pay4
  rw [shapeCast_self]
  exact Cert.MatOps.matmul_plain_zero_apply (M := 512) (K := 128) (N := 1536) none (truncf .bf16 P2 bitsLt_bf16_f32) P3 p q

theorem pay6_apply (P2 : Vec Ideal S512x128 .f32) (P0 : Vec Ideal S512x256 .f32) (P1 : Vec Ideal S256x1536 .bf16)
    (P3 : Vec Ideal S128x1536 .bf16) (P4 : Vec Ideal S512x1 .f32) (P5 P6 : Vec Ideal S1x256 .f32) (P7 : Vec Ideal S256x1280 .bf16)
    (p : Fin 512) (q : Fin 1280) :
    k0_pay6 (F := Ideal) P2 P0 P1 P3 P4 P5 P6 P7 (ix2 p q)
      = ∑ k : Fin 256, k0_pay5 (F := Ideal) P2 P0 P1 P3 P4 P5 P6 (ix2 p k) * P7 (ix2 k q) := by
  unfold k0_pay6
  rw [shapeCast_self]
  exact Cert.MatOps.matmul_plain_zero_apply (M := 512) (K := 256) (N := 1280) none
    (truncf .bf16 (k0_pay5 (F := Ideal) P2 P0 P1 P3 P4 P5 P6) bitsLt_bf16_f32) P7 p q

/-! ## Layout steps of the body at an element -/

/-- Columns `c … c + 255` of a 512-row matrix, read at `(p, o)`: the matrix at column `c + o`. -/
theorem slice_cols {N : Nat} (c : Nat) (X : (⟨2, ![512, N]⟩ : Shape).Idx → EReal)
    (hs : (⟨2, ![512, N]⟩ : Shape).Slices ![0, c] ⟨2, ![512, 256]⟩) (p : Fin 512) (o : Fin 256) (q : Fin N)
    (hq : q.val = c + o.val) :
    extractStridedSlice ⟨2, ![512, 256]⟩ ![0, c] X hs (ix2 p o) = X (ix2 p q) :=
  extractStridedSlice_apply ![0, c] X hs (ix2 p o) (ix2 p q) (fun a => match a with
    | ⟨0, _⟩ => by show p.val = 0 + p.val; omega
    | ⟨1, _⟩ => hq)

/-- A column [512, 1] spread over 256 columns. -/
theorem col_bcast (v : (⟨2, ![512, 1]⟩ : Shape).Idx → EReal)
    (hb : (⟨2, ![512, 1]⟩ : Shape).Broadcasts ⟨2, ![512, 256]⟩) (p : Fin 512) (o : Fin 256) :
    broadcastTo ⟨2, ![512, 256]⟩ v hb (ix2 p o) = v (ix2 p 0) :=
  broadcastTo_apply v hb (ix2 p o) (ix2 p 0) (fun a => match a with
    | ⟨0, _⟩ => by show p.val = (if (512 : Nat) = 1 then 0 else p.val); rw [if_neg (by decide)]
    | ⟨1, _⟩ => by show 0 = (if (1 : Nat) = 1 then 0 else o.val); rw [if_pos rfl])

/-- A row [1, 256] spread over 512 rows. -/
theorem row_bcast (v : (⟨2, ![1, 256]⟩ : Shape).Idx → EReal)
    (hb : (⟨2, ![1, 256]⟩ : Shape).Broadcasts ⟨2, ![512, 256]⟩) (p : Fin 512) (o : Fin 256) :
    broadcastTo ⟨2, ![512, 256]⟩ v hb (ix2 p o) = v (ix2 0 o) :=
  broadcastTo_apply v hb (ix2 p o) (ix2 0 o) (fun a => match a with
    | ⟨0, _⟩ => by show 0 = (if (1 : Nat) = 1 then 0 else p.val); rw [if_pos rfl]
    | ⟨1, _⟩ => by show o.val = (if (256 : Nat) = 1 then 0 else o.val); rw [if_neg (by decide)])

/-! ## What the tile's vectors hold -/

/-- Column `g·256 + o` of a matrix of six gates side by side. -/
abbrev col6 (g : Fin 6) (o : Fin 256) : Fin 1536 := ⟨g.val * 256 + o.val, by have := g.isLt; have := o.isLt; omega⟩
/-- Column `j·256 + o` of a matrix of five gates side by side. -/
abbrev col5 (j : Fin 5) (o : Fin 256) : Fin 1280 := ⟨j.val * 256 + o.val, by have := j.isLt; have := o.isLt; omega⟩

/-- The vectors a grid point's body loads, against the argument arrays: the tile's row `p` is batch row `row p`; the
    weight matrices hold the gates side by side; the bias rows are read one by one. -/
structure Tile (x : A2 65536 128) (d : A2 65536 1) (h : A2 65536 256) (Wh : A3 6 256 256) (Wx : A3 6 256 128)
    (Ws : A3 5 256 256) (Wst : A2 256 1) (b : A2 6 256) (row : Fin 512 → Fin 65536)
    (P0 : Vec Ideal S512x256 .f32) (P1 : Vec Ideal S256x1536 .bf16) (P2 : Vec Ideal S512x128 .f32)
    (P3 : Vec Ideal S128x1536 .bf16) (P4 : Vec Ideal S512x1 .f32) (P5 P6 : Vec Ideal S1x256 .f32)
    (P7 : Vec Ideal S256x1280 .bf16) : Prop where
  hh : ∀ (p : Fin 512) (k : Fin 256), P0 (ix2 p k) = h (ix2 (row p) k)
  hWh : ∀ (g : Fin 6) (o k : Fin 256), P1 (ix2 k (col6 g o)) = Wh (ix3 g o k)
  hx : ∀ (p : Fin 512) (k : Fin 128), P2 (ix2 p k) = x (ix2 (row p) k)
  hWx : ∀ (g : Fin 6) (o : Fin 256) (k : Fin 128), P3 (ix2 k (col6 g o)) = Wx (ix3 g o k)
  hd : ∀ p : Fin 512, P4 (ix2 p 0) = d (ix2 (row p) 0)
  hWst : ∀ o : Fin 256, P5 (ix2 0 o) = Wst (ix2 o 0)
  hb0 : ∀ o : Fin 256, P6 (ix2 0 o) = b (ix2 0 o)
  hWs : ∀ (j : Fin 5) (o k : Fin 256), P7 (ix2 k (col5 j o)) = Ws (ix3 j o k)

section Gates

variable {x : A2 65536 128} {d : A2 65536 1} {h : A2 65536 256} {Wh : A3 6 256 256} {Wx : A3 6 256 128}
  {Ws : A3 5 256 256} {Wst : A2 256 1} {b : A2 6 256} {row : Fin 512 → Fin 65536}
  {P0 : Vec Ideal S512x256 .f32} {P1 : Vec Ideal S256x1536 .bf16} {P2 : Vec Ideal S512x128 .f32}
  {P3 : Vec Ideal S128x1536 .bf16} {P4 : Vec Ideal S512x1 .f32} {P5 P6 : Vec Ideal S1x256 .f32}
  {P7 : Vec Ideal S256x1280 .bf16}

/-- The two products over `h` and `x`, at row `p` and column `g·256 + o`, are the linear part of gate `g`. -/
theorem lin_point (T : Tile x d h Wh Wx Ws Wst b row P0 P1 P2 P3 P4 P5 P6 P7) (g : Fin 6) (p : Fin 512) (o : Fin 256)
    (i3 i4 : S512x1536.Idx) (h30 : (i3 0).val = p.val) (h31 : (i3 1).val = g.val * 256 + o.val)
    (h40 : (i4 0).val = p.val) (h41 : (i4 1).val = g.val * 256 + o.val) :
    k0_pay3 (F := Ideal) P0 P1 i3 + k0_pay4 (F := Ideal) P2 P3 i4 = lin x h Wh Wx g (row p) o := by
  rw [idx2_of_vals i3 p (col6 g o) h30 h31, idx2_of_vals i4 p (col6 g o) h40 h41, pay3_apply, pay4_apply]
  unfold lin
  refine congrArg₂ (fun a b : EReal => a + b) (Finset.sum_congr rfl fun k _ => ?_) (Finset.sum_congr rfl fun k _ => ?_)
  · rw [T.hh, T.hWh]
  · rw [T.hx, T.hWx]

/-- The candidate state's expression at row `p`, unit `o`. -/
theorem cand_point (T : Tile x d h Wh Wx Ws Wst b row P0 P1 P2 P3 P4 P5 P6 P7) (p : Fin 512) (o : Fin 256)
    (i3 i4 : S512x1536.Idx) (i5 : S512x1.Idx) (i6 i7 : S1x256.Idx)
    (h30 : (i3 0).val = p.val) (h31 : (i3 1).val = (0 : Fin 6).val * 256 + o.val)
    (h40 : (i4 0).val = p.val) (h41 : (i4 1).val = (0 : Fin 6).val * 256 + o.val)
    (h50 : (i5 0).val = p.val) (h51 : (i5 1).val = (0 : Fin 1).val)
    (h60 : (i6 0).val = (0 : Fin 1).val) (h61 : (i6 1).val = o.val)
    (h70 : (i7 0).val = (0 : Fin 1).val) (h71 : (i7 1).val = o.val) :
    Ideal.tanh (k0_pay3 (F := Ideal) P0 P1 i3 + k0_pay4 (F := Ideal) P2 P3 i4 + P4 i5 * P5 i6 + P6 i7)
      = cand x d h Wh Wx Wst b (row p) o := by
  unfold cand
  rw [lin_point T 0 p o i3 i4 h30 h31 h40 h41, idx2_of_vals i5 p 0 h50 h51, idx2_of_vals i6 0 o h60 h61,
    idx2_of_vals i7 0 o h70 h71, T.hd, T.hWst, T.hb0]

/-- The candidate state as the body holds it (the operand of the third product), at row `p`, unit `k`. -/
theorem pay5_point (T : Tile x d h Wh Wx Ws Wst b row P0 P1 P2 P3 P4 P5 P6 P7) (p : Fin 512) (k : Fin 256) :
    k0_pay5 (F := Ideal) P2 P0 P1 P3 P4 P5 P6 (ix2 p k) = cand x d h Wh Wx Wst b (row p) k := by
  unfold k0_pay5
  show Ideal.tanh (extractStridedSlice S512x256 ![0, 0] (k0_pay3 (F := Ideal) P0 P1) _ (ix2 p k)
      + extractStridedSlice S512x256 ![0, 0] (k0_pay4 (F := Ideal) P2 P3) _ (ix2 p k)
      + broadcastTo S512x256 P4 _ (ix2 p k) * broadcastTo S512x256 (shapeCast S1x256 P5 _) _ (ix2 p k)
      + broadcastTo S512x256 (shapeCast S1x256 (shapeCast S256 P6 _) _) _ (ix2 p k)) = _
  rw [slice_cols 0 (k0_pay3 (F := Ideal) P0 P1) _ p k (col6 0 k) (by show (0 : Fin 6).val * 256 + k.val = 0 + k.val; omega),
    slice_cols 0 (k0_pay4 (F := Ideal) P2 P3) _ p k (col6 0 k) (by show (0 : Fin 6).val * 256 + k.val = 0 + k.val; omega),
    col_bcast, row_bcast, row_bcast, shapeCast_self, shapeCast_shapeCast]
  exact cand_point T p k _ _ _ _ _ rfl rfl rfl rfl rfl rfl rfl rfl rfl rfl

/-- Gate `j + 1` at row `p`, unit `o`: the two products at column `(j+1)·256 + o`, the candidate's product at column
    `j·256 + o`, and bias row `j + 1`. -/
theorem gate_point (T : Tile x d h Wh Wx Ws Wst b row P0 P1 P2 P3 P4 P5 P6 P7) (j : Fin 5) (p : Fin 512) (o : Fin 256)
    (Pb : Vec Ideal S1x256 .f32) (hPb : ∀ o : Fin 256, Pb (ix2 0 o) = b (ix2 j.succ o))
    (i3 i4 : S512x1536.Idx) (i6 : S512x1280.Idx) (ib : S1x256.Idx)
    (h30 : (i3 0).val = p.val) (h31 : (i3 1).val = j.succ.val * 256 + o.val)
    (h40 : (i4 0).val = p.val) (h41 : (i4 1).val = j.succ.val * 256 + o.val)
    (h60 : (i6 0).val = p.val) (h61 : (i6 1).val = j.val * 256 + o.val)
    (hb0 : (ib 0).val = (0 : Fin 1).val) (hb1 : (ib 1).val = o.val) :
    k0_pay3 (F := Ideal) P0 P1 i3 + k0_pay4 (F := Ideal) P2 P3 i4 + k0_pay6 (F := Ideal) P2 P0 P1 P3 P4 P5 P6 P7 i6 + Pb ib
      = gate x d h Wh Wx Ws Wst b j (row p) o := by
  unfold gate
  rw [lin_point T j.succ p o i3 i4 h30 h31 h40 h41, idx2_of_vals i6 p (col5 j o) h60 h61, idx2_of_vals ib 0 o hb0 hb1,
    pay6_apply, hPb]
  refine congrArg (fun s : EReal => lin x h Wh Wx j.succ (row p) o + s + b (ix2 j.succ o)) ?_
  exact Finset.sum_congr rfl fun k _ => by rw [pay5_point T p k, T.hWs]

end Gates

/-! ## The two stored blocks at an element -/

section Stored

variable {x : A2 65536 128} {d : A2 65536 1} {h : A2 65536 256} {Wh : A3 6 256 256} {Wx : A3 6 256 128}
  {Ws : A3 5 256 256} {Wst : A2 256 1} {b : A2 6 256} {row : Fin 512 → Fin 65536}
  {P0 : Vec Ideal S512x256 .f32} {P1 : Vec Ideal S256x1536 .bf16} {P2 : Vec Ideal S512x128 .f32}
  {P3 : Vec Ideal S128x1536 .bf16} {P4 : Vec Ideal S512x1 .f32} {P5 P6 : Vec Ideal S1x256 .f32}
  {P7 : Vec Ideal S256x1280 .bf16}

/-- The block stored to the second output, at row `p`, unit `o`: the new cell state at batch row `row p`. `Pc` is
    the tile of the previous cell state, `B1 … B4` bias rows 1 to 4. -/
theorem cell_point (T : Tile x d h Wh Wx Ws Wst b row P0 P1 P2 P3 P4 P5 P6 P7) (cp : A2 65536 256)
    (Pc : Vec Ideal S512x256 .f32) (hc : ∀ (p : Fin 512) (o : Fin 256), Pc (ix2 p o) = cp (ix2 (row p) o))
    (B1 B2 B3 B4 : Vec Ideal S1x256 .f32)
    (hB1 : ∀ o : Fin 256, B1 (ix2 0 o) = b (ix2 (0 : Fin 5).succ o))
    (hB2 : ∀ o : Fin 256, B2 (ix2 0 o) = b (ix2 (1 : Fin 5).succ o))
    (hB3 : ∀ o : Fin 256, B3 (ix2 0 o) = b (ix2 (2 : Fin 5).succ o))
    (hB4 : ∀ o : Fin 256, B4 (ix2 0 o) = b (ix2 (3 : Fin 5).succ o))
    (p : Fin 512) (o : Fin 256) :
    Value.E10 (F := Ideal) P0 P1 P2 P3 P4 P5 P6 P7 B1 Pc B2 B4 B3 (ix2 p o) = cellNew x d h cp Wh Wx Ws Wst b (row p) o := by
  simp only [Value.E10, Ideal.addf_def, Ideal.mulf_def, Ideal.logistic_def, Ideal.tanh_def]
  unfold cellNew
  refine congrArg₂ (fun a c : EReal => a + c) (congrArg₂ (fun a c : EReal => a + c)
      (congrArg₂ (fun a c : EReal => a * c) (congrArg Ideal.logistic ?_) ?_)
      (congrArg₂ (fun a c : EReal => a * c) (congrArg Ideal.logistic ?_) (congrArg Ideal.tanh ?_)))
    (congrArg₂ (fun a c : EReal => a * c) (congrArg Ideal.logistic ?_) ?_)
  · exact gate_point T 0 p o B1 hB1 _ _ _ _ rfl (by show o.val + 256 = 1 * 256 + o.val; omega) rfl
      (by show o.val + 256 = 1 * 256 + o.val; omega) rfl (by show o.val = 0 * 256 + o.val; omega) rfl rfl
  · rw [idx2_of_vals (Value.ix10_4 (ix2 p o)) p o rfl rfl]; exact hc p o
  · exact gate_point T 1 p o B2 hB2 _ _ _ _ rfl (by show o.val + 512 = 2 * 256 + o.val; omega) rfl
      (by show o.val + 512 = 2 * 256 + o.val; omega) rfl (by show o.val + 256 = 1 * 256 + o.val; omega) rfl rfl
  · exact gate_point T 3 p o B4 hB4 _ _ _ _ rfl (by show o.val + 1024 = 4 * 256 + o.val; omega) rfl
      (by show o.val + 1024 = 4 * 256 + o.val; omega) rfl (by show o.val + 768 = 3 * 256 + o.val; omega) rfl rfl
  · exact gate_point T 2 p o B3 hB3 _ _ _ _ rfl (by show o.val + 768 = 3 * 256 + o.val; omega) rfl
      (by show o.val + 768 = 3 * 256 + o.val; omega) rfl (by show o.val + 512 = 2 * 256 + o.val; omega) rfl rfl
  · exact cand_point T p o _ _ _ _ _ rfl (by show o.val = 0 * 256 + o.val; omega) rfl
      (by show o.val = 0 * 256 + o.val; omega) rfl rfl rfl rfl rfl rfl

/-- The block stored to the first output, at row `p`, unit `o`: the new hidden state at batch row `row p`. `B5` is
    bias row 5. -/
theorem hidden_point (T : Tile x d h Wh Wx Ws Wst b row P0 P1 P2 P3 P4 P5 P6 P7) (cp : A2 65536 256)
    (Pc : Vec Ideal S512x256 .f32) (hc : ∀ (p : Fin 512) (o : Fin 256), Pc (ix2 p o) = cp (ix2 (row p) o))
    (B1 B2 B3 B4 B5 : Vec Ideal S1x256 .f32)
    (hB1 : ∀ o : Fin 256, B1 (ix2 0 o) = b (ix2 (0 : Fin 5).succ o))
    (hB2 : ∀ o : Fin 256, B2 (ix2 0 o) = b (ix2 (1 : Fin 5).succ o))
    (hB3 : ∀ o : Fin 256, B3 (ix2 0 o) = b (ix2 (2 : Fin 5).succ o))
    (hB4 : ∀ o : Fin 256, B4 (ix2 0 o) = b (ix2 (3 : Fin 5).succ o))
    (hB5 : ∀ o : Fin 256, B5 (ix2 0 o) = b (ix2 (4 : Fin 5).succ o))
    (p : Fin 512) (o : Fin 256) :
    Value.E9 (F := Ideal) P0 P1 P2 P3 P4 P5 P6 P7 B5 B1 Pc B2 B4 B3 (ix2 p o) = hiddenNew x d h cp Wh Wx Ws Wst b (row p) o := by
  unfold hiddenNew
  refine congrArg₂ (fun a c : EReal => a * c) (congrArg Ideal.logistic ?_) (congrArg Ideal.tanh ?_)
  · exact gate_point T 4 p o B5 hB5 _ _ _ _ rfl (by show o.val + 1280 = 5 * 256 + o.val; omega) rfl
      (by show o.val + 1280 = 5 * 256 + o.val; omega) rfl (by show o.val + 1024 = 4 * 256 + o.val; omega) rfl rfl
  · exact cell_point T cp Pc hc B1 B2 B3 B4 hB1 hB2 hB3 hB4 p o

end Stored

/-! ## From the staged blocks to the stored blocks -/

section Blocks

theorem zero_off : (![0, 0] : Fin 2 → Nat) = fun _ => 0 := funext fun a => by fin_cases a <;> rfl

/-- A load of the one row `g` of the bias block, read at unit `o`. -/
theorem ld_bias_row (x8 : Vec Ideal S6x256 .f32) (g : Fin 6) (inb : ∀ a, (![g.val, 0] : Fin 2 → Nat) a + S1x256.size a ≤ S6x256.size a)
    (o : Fin 256) : View.ld x8 (Rect.unit (s := S6x256) ![g.val, 0] S1x256.size inb) (ix2 0 o) = x8 (ix2 g o) := by
  show x8 ((Rect.unit (s := S6x256) ![g.val, 0] S1x256.size inb).idx (ix2 0 o)) = x8 (ix2 g o)
  refine congrArg x8 (funext fun a => Fin.ext ?_)
  match a with
  | ⟨0, _⟩ => show g.val + 1 * 0 = g.val; omega
  | ⟨1, _⟩ => show 0 + 1 * o.val = o.val; omega

variable {x : A2 65536 128} {d : A2 65536 1} {h cp : A2 65536 256} {Wh : A3 6 256 256} {Wx : A3 6 256 128}
  {Ws : A3 5 256 256} {Wst : A2 256 1} {b : A2 6 256} {row : Fin 512 → Fin 65536}
  {x0 : Vec Ideal S512x128 .f32} {x1 : Vec Ideal S512x1 .f32} {x2 x3 : Vec Ideal S512x256 .f32}
  {x4 : Vec Ideal S256x1536 .bf16} {x5 : Vec Ideal S128x1536 .bf16} {x6 : Vec Ideal S256x1280 .bf16}
  {x7 : Vec Ideal S1x256 .f32} {x8 : Vec Ideal S6x256 .f32}

/-- What the nine staged blocks of a grid point hold, against the argument arrays. -/
structure Staged (x : A2 65536 128) (d : A2 65536 1) (h cp : A2 65536 256) (Wh : A3 6 256 256) (Wx : A3 6 256 128)
    (Ws : A3 5 256 256) (Wst : A2 256 1) (b : A2 6 256) (row : Fin 512 → Fin 65536)
    (x0 : Vec Ideal S512x128 .f32) (x1 : Vec Ideal S512x1 .f32) (x2 x3 : Vec Ideal S512x256 .f32)
    (x4 : Vec Ideal S256x1536 .bf16) (x5 : Vec Ideal S128x1536 .bf16) (x6 : Vec Ideal S256x1280 .bf16)
    (x7 : Vec Ideal S1x256 .f32) (x8 : Vec Ideal S6x256 .f32) : Prop where
  e0 : ∀ (p : Fin 512) (k : Fin 128), x0 (ix2 p k) = x (ix2 (row p) k)
  e1 : ∀ p : Fin 512, x1 (ix2 p 0) = d (ix2 (row p) 0)
  e2 : ∀ (p : Fin 512) (k : Fin 256), x2 (ix2 p k) = h (ix2 (row p) k)
  e3 : ∀ (p : Fin 512) (o : Fin 256), x3 (ix2 p o) = cp (ix2 (row p) o)
  e4 : ∀ (g : Fin 6) (o k : Fin 256), x4 (ix2 k (col6 g o)) = Wh (ix3 g o k)
  e5 : ∀ (g : Fin 6) (o : Fin 256) (k : Fin 128), x5 (ix2 k (col6 g o)) = Wx (ix3 g o k)
  e6 : ∀ (j : Fin 5) (o k : Fin 256), x6 (ix2 k (col5 j o)) = Ws (ix3 j o k)
  e7 : ∀ o : Fin 256, x7 (ix2 0 o) = Wst (ix2 o 0)
  e8 : ∀ (g : Fin 6) (o : Fin 256), x8 (ix2 g o) = b (ix2 g o)

theorem tile_of_staged (S : Staged x d h cp Wh Wx Ws Wst b row x0 x1 x2 x3 x4 x5 x6 x7 x8) :
    Tile x d h Wh Wx Ws Wst b row (View.ld x2 r0_1) (View.ld x4 r0_2) (View.ld x0 r0_0) (View.ld x5 r0_3)
      (View.ld x1 r0_4) (View.ld x7 r0_5) (View.ld x8 r0_6) (View.ld x6 r0_7) where
  hh p k := by rw [View.ld_unit_zero (S := S512x256) zero_off]; exact S.e2 p k
  hWh g o k := by rw [View.ld_unit_zero (S := S256x1536) zero_off]; exact S.e4 g o k
  hx p k := by rw [View.ld_unit_zero (S := S512x128) zero_off]; exact S.e0 p k
  hWx g o k := by rw [View.ld_unit_zero (S := S128x1536) zero_off]; exact S.e5 g o k
  hd p := by rw [View.ld_unit_zero (S := S512x1) zero_off]; exact S.e1 p
  hWst o := by rw [View.ld_unit_zero (S := S1x256) zero_off]; exact S.e7 o
  hb0 o := (ld_bias_row x8 0 _ o).trans (S.e8 0 o)
  hWs j o k := by rw [View.ld_unit_zero (S := S256x1280) zero_off]; exact S.e6 j o k

/-- The first output's staging buffer after the body, at an element: the new hidden state. -/
theorem out9_apply (S : Staged x d h cp Wh Wx Ws Wst b row x0 x1 x2 x3 x4 x5 x6 x7 x8) (y : S512x256.Idx) :
    out0_9 (F := Ideal) x0 x1 x2 x3 x4 x5 x6 x7 x8 y = hiddenNew x d h cp Wh Wx Ws Wst b (row (y 0)) (y 1) := by
  obtain ⟨p, o, rfl⟩ : ∃ (p : Fin 512) (o : Fin 256), y = ix2 p o := ⟨y 0, y 1, eq_ix2 y⟩
  unfold out0_9
  rw [Value.canon9_eq]
  exact hidden_point (tile_of_staged S) cp (View.ld x3 r0_1)
    (fun p o => by rw [View.ld_unit_zero (S := S512x256) zero_off]; exact S.e3 p o)
    (View.ld x8 r0_8) (View.ld x8 r0_9) (View.ld x8 r0_10) (View.ld x8 r0_11) (View.ld x8 r0_12)
    (fun o => (ld_bias_row x8 1 _ o).trans (S.e8 1 o)) (fun o => (ld_bias_row x8 2 _ o).trans (S.e8 2 o))
    (fun o => (ld_bias_row x8 3 _ o).trans (S.e8 3 o)) (fun o => (ld_bias_row x8 4 _ o).trans (S.e8 4 o))
    (fun o => (ld_bias_row x8 5 _ o).trans (S.e8 5 o)) p o

/-- The second output's staging buffer after the body, at an element: the new cell state. -/
theorem out10_apply (S : Staged x d h cp Wh Wx Ws Wst b row x0 x1 x2 x3 x4 x5 x6 x7 x8) (y : S512x256.Idx) :
    out0_10 (F := Ideal) x0 x1 x2 x3 x4 x5 x6 x7 x8 y = cellNew x d h cp Wh Wx Ws Wst b (row (y 0)) (y 1) := by
  obtain ⟨p, o, rfl⟩ : ∃ (p : Fin 512) (o : Fin 256), y = ix2 p o := ⟨y 0, y 1, eq_ix2 y⟩
  unfold out0_10
  rw [Value.canon10_eq]
  exact cell_point (tile_of_staged S) cp (View.ld x3 r0_1)
    (fun p o => by rw [View.ld_unit_zero (S := S512x256) zero_off]; exact S.e3 p o)
    (View.ld x8 r0_8) (View.ld x8 r0_9) (View.ld x8 r0_10) (View.ld x8 r0_11)
    (fun o => (ld_bias_row x8 1 _ o).trans (S.e8 1 o)) (fun o => (ld_bias_row x8 2 _ o).trans (S.e8 2 o))
    (fun o => (ld_bias_row x8 3 _ o).trans (S.e8 3 o)) (fun o => (ld_bias_row x8 4 _ o).trans (S.e8 4 o)) p o

end Blocks

end Cert.Cell.Point

end
-- ==== Proof.HostWeights.lean ====
/-
  The weight operands as the kernel's region finds them.

  Before the region the program rearranges its weight arguments once. A stack of matrices W of shape [G, O, K] (gate,
  output unit, input unit) is transposed by the permutation [2, 0, 1] to [K, G, O], its two trailing axes are merged to
  give [K, G·O], and the entries are converted to the narrower float type, which on the extended reals changes nothing.
  The array the region finds therefore holds, at row k and column g·O + o, the entry W(g, o, k): the merged array's
  row-major position of (k, g·O + o) is k·(G·O) + g·O + o, which is the position (k·G + g)·O + o of (k, g, o) in
  [K, G, O], and the transpose reads source axis 2 on result axis 0, source axis 0 on result axis 1 and source axis 1 on
  result axis 2. This holds for the recurrent weights (G = 6, O = K = 256), the input weights (G = 6, O = 256, K = 128)
  and the candidate-state weights (G = 5, O = K = 256). The column of time weights, of shape [256, 1], is transposed to
  the row [1, 256].

  The two layout steps are first stated once each over any element type and any extents, then read off the program's
  host operations for each of the four arrays.
-/
import proofs.«136221_j57784490000883_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.Cell.Host

open Cert.KernelIdeal Cert.KernelIdeal.Gen Idealize.ShloMosaic Idealize.ShloMosaic.ValueIdx Idealize.ShloMosaic.TcCoe Idealize.SL.Sem

/-! ## The two layout steps, at an index given by coordinates -/

section Layout

variable {α : Type}

/-- An [a, b, c] array transposed by the permutation [2, 0, 1] has shape [c, a, b] and reads, at (k, g, o), the operand
    at (g, o, k): result axis 0 is source axis 2, result axis 1 is source axis 0, result axis 2 is source axis 1. -/
theorem transpose_ix3_201_apply {a b c : ℕ} (x : (⟨3, ![a, b, c]⟩ : Shape).Idx → α)
    (h : (⟨3, ![a, b, c]⟩ : Shape).Transposes [2, 0, 1] ⟨3, ![c, a, b]⟩) (k : Fin c) (g : Fin a) (o : Fin b) :
    transpose ⟨3, ![c, a, b]⟩ [2, 0, 1] x h (ix3 k g o) = x (ix3 g o k) :=
  transpose_apply _ x h _ _ fun ax => match ax with | ⟨0, _⟩ => rfl | ⟨1, _⟩ => rfl | ⟨2, _⟩ => rfl

/-- An [a, b, c] array whose two trailing axes are merged into one of extent n = b·c reads, at (i, g·c + o), the operand
    at (i, g, o): both have row-major position i·b·c + g·c + o. -/
theorem shapeCast_abc_a_bc_apply {a b c n : ℕ} (hn : n = b * c) (x : (⟨3, ![a, b, c]⟩ : Shape).Idx → α)
    (h : (⟨3, ![a, b, c]⟩ : Shape).ShapeCasts ⟨2, ![a, n]⟩) (i : Fin a) (g : Fin b) (o : Fin c)
    (hlt : g.val * c + o.val < n) :
    shapeCast ⟨2, ![a, n]⟩ x h (ix2 i ⟨g.val * c + o.val, hlt⟩) = x (ix3 i g o) :=
  shapeCast_apply x h _ _ (by
    rw [Shape.rowMajor_val_three, Shape.rowMajor_val_two]
    show (i.val * b + g.val) * c + o.val = i.val * n + (g.val * c + o.val)
    rw [hn, Nat.add_mul, Nat.mul_assoc, Nat.add_assoc])

end Layout

/-! ## The four arrays -/

variable (m : (ℓ : Loc nD τ sig) → Buf (Elt Ideal) ℓ) (c : Dev nD)

/-- The recurrent weights as the region finds them: row k, column g·256 + o holds Wh(g, o, k). -/
theorem whT_apply (g : Fin 6) (o k : Fin 256) :
    (V m c main_v2 : S256x1536.Idx → EReal) (ix2 k ⟨g.val * 256 + o.val, by have := g.isLt; have := o.isLt; omega⟩)
      = (m ((c : Thread nD τ).loc main_arg4) : S6x256x256.Idx → EReal) (ix3 g o k) := by
  have e : (V m c main_v2 : S256x1536.Idx → EReal)
      = truncf (F := Ideal) .bf16 (shapeCast S256x1536 (transpose S256x6x256 [2, 0, 1] (m ((c : Thread nD τ).loc main_arg4))
          transposes_S6x256x256_S256x6x256_2_0_1) shapeCasts_S256x6x256_S256x1536) bitsLt_bf16_f32 := by
    dsimp only [Gen.V, Gen.hostOps0]; after_results; rfl
  refine (congrFun e _).trans ?_
  refine (truncf_apply (φ := .f32) (ψ := .bf16) _ bitsLt_bf16_f32 _).trans ?_
  refine (shapeCast_abc_a_bc_apply (n := 1536) rfl _ _ k g o _).trans ?_
  exact transpose_ix3_201_apply _ _ k g o

/-- The input weights as the region finds them: row k, column g·256 + o holds Wx(g, o, k). -/
theorem wxT_apply (g : Fin 6) (o : Fin 256) (k : Fin 128) :
    (V m c main_v5 : S128x1536.Idx → EReal) (ix2 k ⟨g.val * 256 + o.val, by have := g.isLt; have := o.isLt; omega⟩)
      = (m ((c : Thread nD τ).loc main_arg5) : S6x256x128.Idx → EReal) (ix3 g o k) := by
  have e : (V m c main_v5 : S128x1536.Idx → EReal)
      = truncf (F := Ideal) .bf16 (shapeCast S128x1536 (transpose S128x6x256 [2, 0, 1] (m ((c : Thread nD τ).loc main_arg5))
          transposes_S6x256x128_S128x6x256_2_0_1) shapeCasts_S128x6x256_S128x1536) bitsLt_bf16_f32 := by
    dsimp only [Gen.V, Gen.hostOps0]; after_results; rfl
  refine (congrFun e _).trans ?_
  refine (truncf_apply (φ := .f32) (ψ := .bf16) _ bitsLt_bf16_f32 _).trans ?_
  refine (shapeCast_abc_a_bc_apply (n := 1536) rfl _ _ k g o _).trans ?_
  exact transpose_ix3_201_apply _ _ k g o

/-- The candidate-state weights as the region finds them: row k, column j·256 + o holds Ws(j, o, k). -/
theorem wsT_apply (j : Fin 5) (o k : Fin 256) :
    (V m c main_v8 : S256x1280.Idx → EReal) (ix2 k ⟨j.val * 256 + o.val, by have := j.isLt; have := o.isLt; omega⟩)
      = (m ((c : Thread nD τ).loc main_arg6) : S5x256x256.Idx → EReal) (ix3 j o k) := by
  have e : (V m c main_v8 : S256x1280.Idx → EReal)
      = truncf (F := Ideal) .bf16 (shapeCast S256x1280 (transpose S256x5x256 [2, 0, 1] (m ((c : Thread nD τ).loc main_arg6))
          transposes_S5x256x256_S256x5x256_2_0_1) shapeCasts_S256x5x256_S256x1280) bitsLt_bf16_f32 := by
    dsimp only [Gen.V, Gen.hostOps0]; after_results; rfl
  refine (congrFun e _).trans ?_
  refine (truncf_apply (φ := .f32) (ψ := .bf16) _ bitsLt_bf16_f32 _).trans ?_
  refine (shapeCast_abc_a_bc_apply (n := 1280) rfl _ _ k j o _).trans ?_
  exact transpose_ix3_201_apply _ _ k j o

/-- The time weights as the region finds them: the column [256, 1] laid as the row [1, 256]. -/
theorem wstRow_apply (o : Fin 256) :
    (V m c main_v9 : S1x256.Idx → EReal) (ix2 0 o) = (m ((c : Thread nD τ).loc main_arg7) : S256x1.Idx → EReal) (ix2 o 0) := by
  have e : (V m c main_v9 : S1x256.Idx → EReal)
      = transpose S1x256 [1, 0] (m ((c : Thread nD τ).loc main_arg7)) transposes_S256x1_S1x256_1_0 := by
    dsimp only [Gen.V, Gen.hostOps0]; after_results
  refine (congrFun e _).trans ?_
  exact transpose_ix2_apply _ _ (0 : Fin 1) o

end Cert.Cell.Host

end
-- ==== Proof.KernelBlocks.lean ====
/-
  From the grid points' blocks to the two result arrays.

  The grid has 128 points; point `t` stages rows `512·t … 512·t + 511` of the four batch arrays, the whole of each
  weight matrix and of the bias, and writes back rows `512·t … 512·t + 511` of the two results. So row `p` of point
  `t`'s tile is batch row `512·t + p`, what point `t` writes back is block `t` of the specification's arrays, and the
  128 blocks cover the results: after the run the two result arrays are the specification's new hidden and new cell
  state.
-/
import proofs.«136221_j57784490000883_2_alg».proof.Proof.Gen.KernelIdeal.Value
import proofs.«136221_j57784490000883_2_alg».proof.Proof.Spec
import proofs.«136221_j57784490000883_2_alg».proof.Proof.KernelPoint
import proofs.«136221_j57784490000883_2_alg».proof.Proof.HostWeights
import Idealize.ShloMosaic.Lib.Pipeline.Value
import Idealize.ShloMosaic.Lib.ValueIdx

set_option maxRecDepth 16384
noncomputable section

namespace Cert.Cell.Blocks

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The block index of every window at every grid point: the batch windows move with the point along the rows, the
    weight and bias windows stay at block 0. -/
theorem idx_facts : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = t.val
    ∧ win0_9.index t (1 : Fin 2) = 0
    ∧ win0_10.index t (0 : Fin 2) = t.val
    ∧ win0_10.index t (1 : Fin 2) = 0 :=
  (by decide +kernel : ∀ t : Fin grid0.N, _)

/-- The batch row that row `p` of point `t`'s tile is. -/
def rowOf (t : Fin cfg0.N) (p : Fin 512) : Fin 65536 :=
  ⟨t.val * 512 + p.val, by have ht : t.val < 128 := lt_of_lt_of_eq t.isLt N_0; have := p.isLt; omega⟩

/-- What point `t`'s nine staged blocks hold. -/
theorem staged (c : Dev nD) (t : Fin cfg0.N) :
    Point.Staged (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (rowOf t)
      (iblk m c 0 t) (iblk m c 1 t) (iblk m c 2 t) (iblk m c 3 t) (iblk m c 4 t) (iblk m c 5 t) (iblk m c 6 t) (iblk m c 7 t) (iblk m c 8 t) := by
  obtain ⟨a0r, a0c, a1r, a1c, a2r, a2c, a3r, a3c, a4r, a4c, a5r, a5c, a6r, a6c, a7r, a7c, a8r, a8c, a9r, a9c, a10r, a10c⟩ := idx_facts t
  constructor
  · intro p k
    show V m c main_arg0 (((cfg0.win 0).blk t).view.emb (ix2 p k)) = _
    rw [V_main_arg0]
    refine congrArg _ (funext fun a => Fin.ext ?_)
    match a with
    | ⟨0, _⟩ => show win0_0.index t (0 : Fin 2) * 512 + 1 * p.val = t.val * 512 + p.val; omega
    | ⟨1, _⟩ => show win0_0.index t (1 : Fin 2) * 128 + 1 * k.val = k.val; omega
  · intro p
    show V m c main_arg1 (((cfg0.win 1).blk t).view.emb (ix2 p 0)) = _
    rw [V_main_arg1]
    refine congrArg _ (funext fun a => Fin.ext ?_)
    match a with
    | ⟨0, _⟩ => show win0_1.index t (0 : Fin 2) * 512 + 1 * p.val = t.val * 512 + p.val; omega
    | ⟨1, _⟩ => show win0_1.index t (1 : Fin 2) * 1 + 1 * 0 = 0; omega
  · intro p k
    show V m c main_arg2 (((cfg0.win 2).blk t).view.emb (ix2 p k)) = _
    rw [V_main_arg2]
    refine congrArg _ (funext fun a => Fin.ext ?_)
    match a with
    | ⟨0, _⟩ => show win0_2.index t (0 : Fin 2) * 512 + 1 * p.val = t.val * 512 + p.val; omega
    | ⟨1, _⟩ => show win0_2.index t (1 : Fin 2) * 256 + 1 * k.val = k.val; omega
  · intro p o
    show V m c main_arg3 (((cfg0.win 3).blk t).view.emb (ix2 p o)) = _
    rw [V_main_arg3]
    refine congrArg _ (funext fun a => Fin.ext ?_)
    match a with
    | ⟨0, _⟩ => show win0_3.index t (0 : Fin 2) * 512 + 1 * p.val = t.val * 512 + p.val; omega
    | ⟨1, _⟩ => show win0_3.index t (1 : Fin 2) * 256 + 1 * o.val = o.val; omega
  · intro g o k
    have e : ((cfg0.win 4).blk t).view.emb (ix2 k (Point.col6 g o)) = ix2 k (Point.col6 g o) := by
      refine funext fun a => Fin.ext ?_
      match a with
      | ⟨0, _⟩ => show win0_4.index t (0 : Fin 2) * 256 + 1 * k.val = k.val; omega
      | ⟨1, _⟩ => show win0_4.index t (1 : Fin 2) * 1536 + 1 * (g.val * 256 + o.val) = g.val * 256 + o.val; omega
    show V m c main_v2 (((cfg0.win 4).blk t).view.emb (ix2 k (Point.col6 g o))) = _
    rw [e]
    exact Host.whT_apply m c g o k
  · intro g o k
    have e : ((cfg0.win 5).blk t).view.emb (ix2 k (Point.col6 g o)) = ix2 k (Point.col6 g o) := by
      refine funext fun a => Fin.ext ?_
      match a with
      | ⟨0, _⟩ => show win0_5.index t (0 : Fin 2) * 128 + 1 * k.val = k.val; omega
      | ⟨1, _⟩ => show win0_5.index t (1 : Fin 2) * 1536 + 1 * (g.val * 256 + o.val) = g.val * 256 + o.val; omega
    show V m c main_v5 (((cfg0.win 5).blk t).view.emb (ix2 k (Point.col6 g o))) = _
    rw [e]
    exact Host.wxT_apply m c g o k
  · intro j o k
    have e : ((cfg0.win 6).blk t).view.emb (ix2 k (Point.col5 j o)) = ix2 k (Point.col5 j o) := by
      refine funext fun a => Fin.ext ?_
      match a with
      | ⟨0, _⟩ => show win0_6.index t (0 : Fin 2) * 256 + 1 * k.val = k.val; omega
      | ⟨1, _⟩ => show win0_6.index t (1 : Fin 2) * 1280 + 1 * (j.val * 256 + o.val) = j.val * 256 + o.val; omega
    show V m c main_v8 (((cfg0.win 6).blk t).view.emb (ix2 k (Point.col5 j o))) = _
    rw [e]
    exact Host.wsT_apply m c j o k
  · intro o
    have e : ((cfg0.win 7).blk t).view.emb (ix2 0 o) = ix2 0 o := by
      refine funext fun a => Fin.ext ?_
      match a with
      | ⟨0, _⟩ => show win0_7.index t (0 : Fin 2) * 1 + 1 * 0 = 0; omega
      | ⟨1, _⟩ => show win0_7.index t (1 : Fin 2) * 256 + 1 * o.val = o.val; omega
    show V m c main_v9 (((cfg0.win 7).blk t).view.emb (ix2 0 o)) = _
    rw [e]
    exact Host.wstRow_apply m c o
  · intro g o
    show V m c main_arg8 (((cfg0.win 8).blk t).view.emb (ix2 g o)) = _
    rw [V_main_arg8]
    refine congrArg _ (funext fun a => Fin.ext ?_)
    match a with
    | ⟨0, _⟩ => show win0_8.index t (0 : Fin 2) * 6 + 1 * g.val = g.val; omega
    | ⟨1, _⟩ => show win0_8.index t (1 : Fin 2) * 256 + 1 * o.val = o.val; omega

/-! ## The first result: the new hidden state -/

/-- What point `t` writes back to the first result is block `t` of the new hidden state. -/
theorem flushed9_eq (c : Dev nD) (t : Fin cfg0.N) :
    (dats m 0 c).flushed 9 t = ((cfg0.win 9).blk t).view.read (Elt Ideal)
      (hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  rw [Value.flushed9]
  obtain ⟨a0r, a0c, a1r, a1c, a2r, a2c, a3r, a3c, a4r, a4c, a5r, a5c, a6r, a6c, a7r, a7c, a8r, a8c, a9r, a9c, a10r, a10c⟩ := idx_facts t
  funext j
  show out0_9 (iblk m c 0 t) (iblk m c 1 t) (iblk m c 2 t) (iblk m c 3 t) (iblk m c 4 t) (iblk m c 5 t) (iblk m c 6 t) (iblk m c 7 t) (iblk m c 8 t) ((cfg0.win 9).xinj (grid0.coords t) j)
    = hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 9).blk t).view.emb j)
  refine (Point.out9_apply (staged m c t) _).trans ?_
  unfold hiddenArr
  refine congrArg₂ (hiddenNew (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (Fin.ext ?_) (Fin.ext ?_)
  · show t.val * 512 + (j 0).val = win0_9.index t (0 : Fin 2) * 512 + 1 * (j 0).val; omega
  · show (j 1).val = win0_9.index t (1 : Fin 2) * 256 + 1 * (j 1).val; omega

/-- An index of the first result is in point `t`'s block iff each coordinate is in the block's range. -/
theorem mem_blk9 (t : Fin cfg0.N) (i : S65536x256.Idx) :
    i ∈ ((cfg0.win 9).blk t).view.set ↔ ∀ a : Fin 2, win0_9.index t a * S512x256.size a ≤ (i a).val ∧ (i a).val < win0_9.index t a * S512x256.size a + S512x256.size a := by
  show i ∈ ((View.whole main_v10_0).slice (win0_9.rect t)).set ↔ _
  rw [View.set_slice_whole, Rect.mem_set_unit]
  exact Iff.rfl

/-- Row `r` of the first result is covered by point `r / 512`. -/
theorem cover9 (i : S65536x256.Idx) : ∃ t : Fin cfg0.N, (cfg0.win 9).flush t = true ∧ i ∈ ((cfg0.win 9).blk t).view.set := by
  have hi0 : (i 0).val < 65536 := (i 0).isLt
  have hi1 : (i 1).val < 256 := (i 1).isLt
  have hN : (i 0).val / 512 < cfg0.N := by rw [show cfg0.N = 128 from N_0]; omega
  obtain ⟨t, ht⟩ : ∃ t : Fin cfg0.N, t.val = (i 0).val / 512 := ⟨⟨(i 0).val / 512, hN⟩, rfl⟩
  obtain ⟨a0r, a0c, a1r, a1c, a2r, a2c, a3r, a3c, a4r, a4c, a5r, a5c, a6r, a6c, a7r, a7c, a8r, a8c, a9r, a9c, a10r, a10c⟩ := idx_facts t
  refine ⟨t, flush0_9 t, (mem_blk9 t i).mpr fun a => ?_⟩
  match a with
  | ⟨0, _⟩ => show win0_9.index t (0 : Fin 2) * 512 ≤ (i 0).val ∧ (i 0).val < win0_9.index t (0 : Fin 2) * 512 + 512; omega
  | ⟨1, _⟩ => show win0_9.index t (1 : Fin 2) * 256 ≤ (i 1).val ∧ (i 1).val < win0_9.index t (1 : Fin 2) * 256 + 256; omega

/-- The first result after the run. -/
theorem final9 (c : Dev nD) : (dats m 0 c).arrAt 9 cfg0.N = hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_cover 9 _ (fun t _ => flushed9_eq m c t) cover9

/-! ## The second result: the new cell state -/

/-- What point `t` writes back to the second result is block `t` of the new cell state. -/
theorem flushed10_eq (c : Dev nD) (t : Fin cfg0.N) :
    (dats m 0 c).flushed 10 t = ((cfg0.win 10).blk t).view.read (Elt Ideal)
      (cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  rw [Value.flushed10]
  obtain ⟨a0r, a0c, a1r, a1c, a2r, a2c, a3r, a3c, a4r, a4c, a5r, a5c, a6r, a6c, a7r, a7c, a8r, a8c, a9r, a9c, a10r, a10c⟩ := idx_facts t
  funext j
  show out0_10 (iblk m c 0 t) (iblk m c 1 t) (iblk m c 2 t) (iblk m c 3 t) (iblk m c 4 t) (iblk m c 5 t) (iblk m c 6 t) (iblk m c 7 t) (iblk m c 8 t) ((cfg0.win 10).xinj (grid0.coords t) j)
    = cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 10).blk t).view.emb j)
  refine (Point.out10_apply (staged m c t) _).trans ?_
  unfold cellArr
  refine congrArg₂ (cellNew (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (Fin.ext ?_) (Fin.ext ?_)
  · show t.val * 512 + (j 0).val = win0_10.index t (0 : Fin 2) * 512 + 1 * (j 0).val; omega
  · show (j 1).val = win0_10.index t (1 : Fin 2) * 256 + 1 * (j 1).val; omega

theorem mem_blk10 (t : Fin cfg0.N) (i : S65536x256.Idx) :
    i ∈ ((cfg0.win 10).blk t).view.set ↔ ∀ a : Fin 2, win0_10.index t a * S512x256.size a ≤ (i a).val ∧ (i a).val < win0_10.index t a * S512x256.size a + S512x256.size a := by
  show i ∈ ((View.whole main_v10_1).slice (win0_10.rect t)).set ↔ _
  rw [View.set_slice_whole, Rect.mem_set_unit]
  exact Iff.rfl

theorem cover10 (i : S65536x256.Idx) : ∃ t : Fin cfg0.N, (cfg0.win 10).flush t = true ∧ i ∈ ((cfg0.win 10).blk t).view.set := by
  have hi0 : (i 0).val < 65536 := (i 0).isLt
  have hi1 : (i 1).val < 256 := (i 1).isLt
  have hN : (i 0).val / 512 < cfg0.N := by rw [show cfg0.N = 128 from N_0]; omega
  obtain ⟨t, ht⟩ : ∃ t : Fin cfg0.N, t.val = (i 0).val / 512 := ⟨⟨(i 0).val / 512, hN⟩, rfl⟩
  obtain ⟨a0r, a0c, a1r, a1c, a2r, a2c, a3r, a3c, a4r, a4c, a5r, a5c, a6r, a6c, a7r, a7c, a8r, a8c, a9r, a9c, a10r, a10c⟩ := idx_facts t
  refine ⟨t, flush0_10 t, (mem_blk10 t i).mpr fun a => ?_⟩
  match a with
  | ⟨0, _⟩ => show win0_10.index t (0 : Fin 2) * 512 ≤ (i 0).val ∧ (i 0).val < win0_10.index t (0 : Fin 2) * 512 + 512; omega
  | ⟨1, _⟩ => show win0_10.index t (1 : Fin 2) * 256 ≤ (i 1).val ∧ (i 1).val < win0_10.index t (1 : Fin 2) * 256 + 256; omega

/-- The second result after the run. -/
theorem final10 (c : Dev nD) : (dats m 0 c).arrAt 10 cfg0.N = cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_cover 10 _ (fun t _ => flushed10_eq m c t) cover10

/-! ## The run -/

/-- Every weakly fair execution of the kernel program terminates with the two results at the specification's arrays
    of the arguments, and the arguments unchanged. -/
theorem run : θ_run defs (onTc (τ := τ) (main (F := Ideal))) ⟨m, fun _ => 0, ρ⟩ fun r => ∀ c : Dev nD,
      r.2.mem ((c : Thread nD τ).loc main_v10_0) = hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v10_1) = cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final9 m c), (h c).2.1.trans (final10 m c), (h c).2.2⟩)
    (Value.run_blocks m ρ)

end Cert.Cell.Blocks

end
-- ==== Proof.Reference.lean ====
/-
  The reference program computes the specification.

  The reference forms the six gates' linear parts at once, as two batched products `Wh · hᵀ` and `Wx · xᵀ` of
  shape `[6, 256, 65536]` that it transposes to `[6, 65536, 256]`: the entry at `(g, r, o)` is
  `Σ_k Wh(g,o,k)·h(r,k)`, the specification's `Σ_k h(r,k)·Wh(g,o,k)` with the factors exchanged. Gate 0 is cut out by
  a slice and a reshape (`[1, 65536, 256] → [65536, 256]`, which in row-major order sends `(r, o)` to `(0, r, o)`);
  the time term is a product with one contracted coordinate, that is the single product `δ(r)·Wst(o)`; the bias row is
  a slice of `b` broadcast along the rows. That gives the candidate state. Gates 1 … 5 are the slice `[1:6]` of the
  same products (gate index `j + 1`), plus the product of `Ws` with the candidate state, plus rows 1 … 5 of `b`.
  Each gate is then cut out as gate 0 was, and `1 / (1 + e^(−·))` is spelt negate, exponential, add to the constant
  one, divide the constant one by it, which is the logistic function by definition. The proof follows the program one
  operation at a time at a row `r` and a unit `o`.
-/
import proofs.«136221_j57784490000883_2_alg».proof.Proof.Gen.ReferenceIdeal.Read
import proofs.«136221_j57784490000883_2_alg».proof.Proof.Spec
import Idealize.ShloMosaic.Lib.IdealHost

open scoped BigOperators
noncomputable section

namespace Cert.Cell.Ref

open Cert.ReferenceIdeal Cert.ReferenceIdeal.Read Idealize.ShloMosaic Idealize.ShloMosaic.ValueIdx

/-! ## Arithmetic of the reshape `[1, 65536, 256] → [65536, 256]` -/

/-- The row-major position `r · 256 + o` lies in row `r`. -/
theorem row_of_flat (r : Fin 65536) (o : Fin 256) : (r.val * 256 + o.val) / 256 % 65536 = r.val := by
  have hr := r.isLt
  have ho := o.isLt
  omega

/-- The row-major position `r · 256 + o` lies in column `o`. -/
theorem col_of_flat (r : Fin 65536) (o : Fin 256) : (r.val * 256 + o.val) % 256 = o.val := by
  have ho := o.isLt
  omega

/-- `1 / (1 + e^(−x))`, the constant one given by its f32 pattern, is the logistic function. -/
theorem logistic_spelt (x : EReal) :
    Ideal.div (Ideal.ofBits .f32 0x3F800000#32) (Ideal.ofBits .f32 0x3F800000#32 + Ideal.exp (-x)) = Ideal.logistic x := by
  rw [Ideal.ofBits_one_f32]
  rfl

section
variable (x0 : (⟨S65536x128, .f32⟩ : BufTy).Contents (Elt Ideal))
  (x1 : (⟨S65536x1, .f32⟩ : BufTy).Contents (Elt Ideal))
  (x2 x3 : (⟨S65536x256, .f32⟩ : BufTy).Contents (Elt Ideal))
  (x4 : (⟨S6x256x256, .f32⟩ : BufTy).Contents (Elt Ideal))
  (x5 : (⟨S6x256x128, .f32⟩ : BufTy).Contents (Elt Ideal))
  (x6 : (⟨S5x256x256, .f32⟩ : BufTy).Contents (Elt Ideal))
  (x7 : (⟨S256x1, .f32⟩ : BufTy).Contents (Elt Ideal))
  (x8 : (⟨S6x256, .f32⟩ : BufTy).Contents (Elt Ideal))

/-! ## The batched products: the linear parts of the six gates -/

/-- `(Wh · hᵀ)ᵀ` at gate `g`, row `r`, unit `o`. -/
theorem v1_at (g : Fin 6) (r : Fin 65536) (o : Fin 256) :
    val_main_v1 (F := Ideal) x2 x4 (ix3 g r o) = ∑ k : Fin 256, x2 (ix2 r k) * x4 (ix3 g o k) := by
  rw [val_main_v1_apply, val_main_v0_apply]
  refine Finset.sum_congr rfl fun k _ => ?_
  have el : lidx_main_v0 (idx_main_v1 (ix3 g r o)) k = ix3 g o k := by
    funext a
    match a with
    | ⟨0, _⟩ => rfl
    | ⟨1, _⟩ => rfl
    | ⟨2, _⟩ => rfl
  have er : ridx_main_v0 (idx_main_v1 (ix3 g r o)) k = ix2 r k := by
    funext a
    match a with
    | ⟨0, _⟩ => rfl
    | ⟨1, _⟩ => rfl
  rw [el, er, mul_comm]

/-- `(Wx · xᵀ)ᵀ` at gate `g`, row `r`, unit `o`. -/
theorem v3_at (g : Fin 6) (r : Fin 65536) (o : Fin 256) :
    val_main_v3 (F := Ideal) x0 x5 (ix3 g r o) = ∑ k : Fin 128, x0 (ix2 r k) * x5 (ix3 g o k) := by
  rw [val_main_v3_apply, val_main_v2_apply]
  refine Finset.sum_congr rfl fun k _ => ?_
  have el : lidx_main_v2 (idx_main_v3 (ix3 g r o)) k = ix3 g o k := by
    funext a
    match a with
    | ⟨0, _⟩ => rfl
    | ⟨1, _⟩ => rfl
    | ⟨2, _⟩ => rfl
  have er : ridx_main_v2 (idx_main_v3 (ix3 g r o)) k = ix2 r k := by
    funext a
    match a with
    | ⟨0, _⟩ => rfl
    | ⟨1, _⟩ => rfl
  rw [el, er, mul_comm]

/-! ## One gate cut out of a stack: a slice of height one, then the reshape -/

theorem v5_at (r : Fin 65536) (o : Fin 256) :
    val_main_v5 (F := Ideal) x2 x4 (ix2 r o) = val_main_v1 (F := Ideal) x2 x4 (ix3 (0 : Fin 6) r o) := by
  have e : idx_main_v4 (idx_main_v5 (ix2 r o)) = ix3 (0 : Fin 6) r o := by
    funext a
    match a with
    | ⟨0, _⟩ => exact Fin.ext rfl
    | ⟨1, _⟩ => exact Fin.ext (row_of_flat r o)
    | ⟨2, _⟩ => exact Fin.ext (col_of_flat r o)
  rw [val_main_v5_apply, val_main_v4_apply, e]

theorem v7_at (r : Fin 65536) (o : Fin 256) :
    val_main_v7 (F := Ideal) x0 x5 (ix2 r o) = val_main_v3 (F := Ideal) x0 x5 (ix3 (0 : Fin 6) r o) := by
  have e : idx_main_v6 (idx_main_v7 (ix2 r o)) = ix3 (0 : Fin 6) r o := by
    funext a
    match a with
    | ⟨0, _⟩ => exact Fin.ext rfl
    | ⟨1, _⟩ => exact Fin.ext (row_of_flat r o)
    | ⟨2, _⟩ => exact Fin.ext (col_of_flat r o)
  rw [val_main_v7_apply, val_main_v6_apply, e]

theorem v29_at (r : Fin 65536) (o : Fin 256) :
    val_main_v29 (F := Ideal) x0 x1 x2 x4 x5 x6 x7 x8 (ix2 r o) = val_main_v27 (F := Ideal) x0 x1 x2 x4 x5 x6 x7 x8 (ix3 (0 : Fin 5) r o) := by
  have e : idx_main_v28 (idx_main_v29 (ix2 r o)) = ix3 (0 : Fin 5) r o := by
    funext a
    match a with
    | ⟨0, _⟩ => exact Fin.ext rfl
    | ⟨1, _⟩ => exact Fin.ext (row_of_flat r o)
    | ⟨2, _⟩ => exact Fin.ext (col_of_flat r o)
  rw [val_main_v29_apply, val_main_v28_apply, e]

theorem v37_at (r : Fin 65536) (o : Fin 256) :
    val_main_v37 (F := Ideal) x0 x1 x2 x4 x5 x6 x7 x8 (ix2 r o) = val_main_v27 (F := Ideal) x0 x1 x2 x4 x5 x6 x7 x8 (ix3 (1 : Fin 5) r o) := by
  have e : idx_main_v36 (idx_main_v37 (ix2 r o)) = ix3 (1 : Fin 5) r o := by
    funext a
    match a with
    | ⟨0, _⟩ => exact Fin.ext rfl
    | ⟨1, _⟩ => exact Fin.ext (row_of_flat r o)
    | ⟨2, _⟩ => exact Fin.ext (col_of_flat r o)
  rw [val_main_v37_apply, val_main_v36_apply, e]

theorem v45_at (r : Fin 65536) (o : Fin 256) :
    val_main_v45 (F := Ideal) x0 x1 x2 x4 x5 x6 x7 x8 (ix2 r o) = val_main_v27 (F := Ideal) x0 x1 x2 x4 x5 x6 x7 x8 (ix3 (2 : Fin 5) r o) := by
  have e : idx_main_v44 (idx_main_v45 (ix2 r o)) = ix3 (2 : Fin 5) r o := by
    funext a
    match a with
    | ⟨0, _⟩ => exact Fin.ext rfl
    | ⟨1, _⟩ => exact Fin.ext (row_of_flat r o)
    | ⟨2, _⟩ => exact Fin.ext (col_of_flat r o)
  rw [val_main_v45_apply, val_main_v44_apply, e]

theorem v53_at (r : Fin 65536) (o : Fin 256) :
    val_main_v53 (F := Ideal) x0 x1 x2 x4 x5 x6 x7 x8 (ix2 r o) = val_main_v27 (F := Ideal) x0 x1 x2 x4 x5 x6 x7 x8 (ix3 (3 : Fin 5) r o) := by
  have e : idx_main_v52 (idx_main_v53 (ix2 r o)) = ix3 (3 : Fin 5) r o := by
    funext a
    match a with
    | ⟨0, _⟩ => exact Fin.ext rfl
    | ⟨1, _⟩ => exact Fin.ext (row_of_flat r o)
    | ⟨2, _⟩ => exact Fin.ext (col_of_flat r o)
  rw [val_main_v53_apply, val_main_v52_apply, e]

theorem v56_at (r : Fin 65536) (o : Fin 256) :
    val_main_v56 (F := Ideal) x0 x1 x2 x4 x5 x6 x7 x8 (ix2 r o) = val_main_v27 (F := Ideal) x0 x1 x2 x4 x5 x6 x7 x8 (ix3 (4 : Fin 5) r o) := by
  have e : idx_main_v55 (idx_main_v56 (ix2 r o)) = ix3 (4 : Fin 5) r o := by
    funext a
    match a with
    | ⟨0, _⟩ => exact Fin.ext rfl
    | ⟨1, _⟩ => exact Fin.ext (row_of_flat r o)
    | ⟨2, _⟩ => exact Fin.ext (col_of_flat r o)
  rw [val_main_v56_apply, val_main_v55_apply, e]

/-! ## The candidate state -/

/-- The time term: a product with one contracted coordinate is a single product. -/
theorem v10_at (r : Fin 65536) (o : Fin 256) :
    val_main_v10 (F := Ideal) x1 x7 (ix2 r o) = x1 (ix2 r (0 : Fin 1)) * x7 (ix2 o (0 : Fin 1)) := by
  have el : lidx_main_v10 (ix2 r o) (0 : Fin 1) = ix2 r (0 : Fin 1) := by
    funext a
    match a with
    | ⟨0, _⟩ => rfl
    | ⟨1, _⟩ => rfl
  have er : idx_main_v9 (ridx_main_v10 (ix2 r o) (0 : Fin 1)) = ix2 o (0 : Fin 1) := by
    funext a
    match a with
    | ⟨0, _⟩ => rfl
    | ⟨1, _⟩ => rfl
  rw [val_main_v10_apply, Fin.sum_univ_one, val_main_v9_apply, el, er]

/-- Row 0 of the bias, broadcast along the rows. -/
theorem v15_at (r : Fin 65536) (o : Fin 256) :
    val_main_v15 (F := Ideal) x8 (ix2 r o) = x8 (ix2 (0 : Fin 6) o) := by
  have e : idx_main_v12 (idx_main_v13 (idx_main_v14 (idx_main_v15 (ix2 r o)))) = ix2 (0 : Fin 6) o := by
    funext a
    match a with
    | ⟨0, _⟩ => exact Fin.ext rfl
    | ⟨1, _⟩ => exact Fin.ext (Nat.mod_eq_of_lt o.isLt)
  rw [val_main_v15_apply, val_main_v14_apply, val_main_v13_apply, val_main_v12_apply, e]

/-- The candidate state. -/
theorem cand_at (r : Fin 65536) (o : Fin 256) :
    val_main_v17 (F := Ideal) x0 x1 x2 x4 x5 x7 x8 (ix2 r o) = cand x0 x1 x2 x4 x5 x7 x8 r o := by
  rw [val_main_v17_apply, val_main_v16_apply, val_main_v11_apply, val_main_v8_apply, v5_at, v7_at, v10_at, v15_at,
    v1_at, v3_at]
  rfl

/-! ## The five gates -/

/-- Gates 1 … 5 of the recurrent product: gate `j` of the slice is gate `j + 1` of the stack. -/
theorem v20_at (j : Fin 5) (r : Fin 65536) (o : Fin 256) :
    val_main_v20 (F := Ideal) x2 x4 (ix3 j r o) = val_main_v1 (F := Ideal) x2 x4 (ix3 (n0 := 6) j.succ r o) := by
  have e : idx_main_v20 (ix3 j r o) = ix3 (n0 := 6) j.succ r o := by
    funext a
    match a with
    | ⟨0, _⟩ => exact Fin.ext (Nat.add_comm 1 j.val)
    | ⟨1, _⟩ => rfl
    | ⟨2, _⟩ => rfl
  rw [val_main_v20_apply, e]

/-- Gates 1 … 5 of the input product. -/
theorem v21_at (j : Fin 5) (r : Fin 65536) (o : Fin 256) :
    val_main_v21 (F := Ideal) x0 x5 (ix3 j r o) = val_main_v3 (F := Ideal) x0 x5 (ix3 (n0 := 6) j.succ r o) := by
  have e : idx_main_v21 (ix3 j r o) = ix3 (n0 := 6) j.succ r o := by
    funext a
    match a with
    | ⟨0, _⟩ => exact Fin.ext (Nat.add_comm 1 j.val)
    | ⟨1, _⟩ => rfl
    | ⟨2, _⟩ => rfl
  rw [val_main_v21_apply, e]

/-- The candidate state's contribution `(Ws · sᵀ)ᵀ` at gate `j`, row `r`, unit `o`. -/
theorem v19_at (j : Fin 5) (r : Fin 65536) (o : Fin 256) :
    val_main_v19 (F := Ideal) x0 x1 x2 x4 x5 x6 x7 x8 (ix3 j r o)
      = ∑ k : Fin 256, cand x0 x1 x2 x4 x5 x7 x8 r k * x6 (ix3 j o k) := by
  rw [val_main_v19_apply, val_main_v18_apply]
  refine Finset.sum_congr rfl fun k _ => ?_
  have el : lidx_main_v18 (idx_main_v19 (ix3 j r o)) k = ix3 j o k := by
    funext a
    match a with
    | ⟨0, _⟩ => rfl
    | ⟨1, _⟩ => rfl
    | ⟨2, _⟩ => rfl
  have er : ridx_main_v18 (idx_main_v19 (ix3 j r o)) k = ix2 r k := by
    funext a
    match a with
    | ⟨0, _⟩ => rfl
    | ⟨1, _⟩ => rfl
  rw [el, er, cand_at, mul_comm]

/-- Rows 1 … 5 of the bias, broadcast along the rows. -/
theorem v26_at (j : Fin 5) (r : Fin 65536) (o : Fin 256) :
    val_main_v26 (F := Ideal) x8 (ix3 j r o) = x8 (ix2 (n0 := 6) j.succ o) := by
  have e : idx_main_v24 (idx_main_v25 (idx_main_v26 (ix3 j r o))) = ix2 (n0 := 6) j.succ o := by
    funext a
    match a with
    | ⟨0, _⟩ => exact Fin.ext (Nat.add_comm 1 j.val)
    | ⟨1, _⟩ => rfl
  rw [val_main_v26_apply, val_main_v25_apply, val_main_v24_apply, e]

/-- Gate `j + 1` before its nonlinearity. -/
theorem gate_at (j : Fin 5) (r : Fin 65536) (o : Fin 256) :
    val_main_v27 (F := Ideal) x0 x1 x2 x4 x5 x6 x7 x8 (ix3 j r o) = gate x0 x1 x2 x4 x5 x6 x7 x8 j r o := by
  rw [val_main_v27_apply, val_main_v23_apply, val_main_v22_apply, v20_at, v21_at, v19_at, v26_at, v1_at, v3_at]
  rfl

/-! ## The nonlinearities -/

theorem v35_at (r : Fin 65536) (o : Fin 256) :
    val_main_v35 (F := Ideal) x0 x1 x2 x4 x5 x6 x7 x8 (ix2 r o) = Ideal.logistic (gate x0 x1 x2 x4 x5 x6 x7 x8 0 r o) := by
  rw [val_main_v35_apply, val_main_v34_apply, val_main_cst_0_apply, val_main_v33_apply, val_main_v32_apply,
    val_main_cst_apply, val_main_v31_apply, val_main_v30_apply, v29_at, gate_at]
  exact logistic_spelt _

theorem v43_at (r : Fin 65536) (o : Fin 256) :
    val_main_v43 (F := Ideal) x0 x1 x2 x4 x5 x6 x7 x8 (ix2 r o) = Ideal.logistic (gate x0 x1 x2 x4 x5 x6 x7 x8 1 r o) := by
  rw [val_main_v43_apply, val_main_v42_apply, val_main_cst_2_apply, val_main_v41_apply, val_main_v40_apply,
    val_main_cst_1_apply, val_main_v39_apply, val_main_v38_apply, v37_at, gate_at]
  exact logistic_spelt _

theorem v51_at (r : Fin 65536) (o : Fin 256) :
    val_main_v51 (F := Ideal) x0 x1 x2 x4 x5 x6 x7 x8 (ix2 r o) = Ideal.logistic (gate x0 x1 x2 x4 x5 x6 x7 x8 2 r o) := by
  rw [val_main_v51_apply, val_main_v50_apply, val_main_cst_4_apply, val_main_v49_apply, val_main_v48_apply,
    val_main_cst_3_apply, val_main_v47_apply, val_main_v46_apply, v45_at, gate_at]
  exact logistic_spelt _

theorem v62_at (r : Fin 65536) (o : Fin 256) :
    val_main_v62 (F := Ideal) x0 x1 x2 x4 x5 x6 x7 x8 (ix2 r o) = Ideal.logistic (gate x0 x1 x2 x4 x5 x6 x7 x8 4 r o) := by
  rw [val_main_v62_apply, val_main_v61_apply, val_main_cst_6_apply, val_main_v60_apply, val_main_v59_apply,
    val_main_cst_5_apply, val_main_v58_apply, val_main_v57_apply, v56_at, gate_at]
  exact logistic_spelt _

theorem v54_at (r : Fin 65536) (o : Fin 256) :
    val_main_v54 (F := Ideal) x0 x1 x2 x4 x5 x6 x7 x8 (ix2 r o) = Ideal.tanh (gate x0 x1 x2 x4 x5 x6 x7 x8 3 r o) := by
  rw [val_main_v54_apply, v53_at, gate_at]
  rfl

/-! ## The new cell and hidden states -/

theorem cell_at (r : Fin 65536) (o : Fin 256) :
    val_main_v67 (F := Ideal) x0 x1 x2 x3 x4 x5 x6 x7 x8 (ix2 r o) = cellNew x0 x1 x2 x3 x4 x5 x6 x7 x8 r o := by
  rw [val_main_v67_apply, val_main_v65_apply, val_main_v63_apply, val_main_v64_apply, val_main_v66_apply, v35_at, v43_at,
    v54_at, v51_at, cand_at]
  rfl

theorem hidden_at (r : Fin 65536) (o : Fin 256) :
    val_main_v69 (F := Ideal) x0 x1 x2 x3 x4 x5 x6 x7 x8 (ix2 r o) = hiddenNew x0 x1 x2 x3 x4 x5 x6 x7 x8 r o := by
  rw [val_main_v69_apply, val_main_v68_apply, v62_at, cell_at]
  rfl

end

/-- The reference's first result is the specification's new hidden state. -/
theorem hidden_eq (x0 : (⟨S65536x128, .f32⟩ : BufTy).Contents (Elt Ideal)) (x1 : (⟨S65536x1, .f32⟩ : BufTy).Contents (Elt Ideal)) (x2 x3 : (⟨S65536x256, .f32⟩ : BufTy).Contents (Elt Ideal)) (x4 : (⟨S6x256x256, .f32⟩ : BufTy).Contents (Elt Ideal)) (x5 : (⟨S6x256x128, .f32⟩ : BufTy).Contents (Elt Ideal)) (x6 : (⟨S5x256x256, .f32⟩ : BufTy).Contents (Elt Ideal)) (x7 : (⟨S256x1, .f32⟩ : BufTy).Contents (Elt Ideal)) (x8 : (⟨S6x256, .f32⟩ : BufTy).Contents (Elt Ideal)) :
    Cert.ReferenceIdeal.Read.val_main_v69 (F := Ideal) x0 x1 x2 x3 x4 x5 x6 x7 x8 = Cert.Cell.hiddenArr x0 x1 x2 x3 x4 x5 x6 x7 x8 := by
  funext i
  obtain ⟨r, o, rfl⟩ : ∃ r o, i = ix2 r o := ⟨i 0, i 1, ValueIdx.eq_ix2 i⟩
  exact hidden_at x0 x1 x2 x3 x4 x5 x6 x7 x8 r o

/-- The reference's second result is the specification's new cell state. -/
theorem cell_eq (x0 : (⟨S65536x128, .f32⟩ : BufTy).Contents (Elt Ideal)) (x1 : (⟨S65536x1, .f32⟩ : BufTy).Contents (Elt Ideal)) (x2 x3 : (⟨S65536x256, .f32⟩ : BufTy).Contents (Elt Ideal)) (x4 : (⟨S6x256x256, .f32⟩ : BufTy).Contents (Elt Ideal)) (x5 : (⟨S6x256x128, .f32⟩ : BufTy).Contents (Elt Ideal)) (x6 : (⟨S5x256x256, .f32⟩ : BufTy).Contents (Elt Ideal)) (x7 : (⟨S256x1, .f32⟩ : BufTy).Contents (Elt Ideal)) (x8 : (⟨S6x256, .f32⟩ : BufTy).Contents (Elt Ideal)) :
    Cert.ReferenceIdeal.Read.val_main_v67 (F := Ideal) x0 x1 x2 x3 x4 x5 x6 x7 x8 = Cert.Cell.cellArr x0 x1 x2 x3 x4 x5 x6 x7 x8 := by
  funext i
  obtain ⟨r, o, rfl⟩ : ∃ r o, i = ix2 r o := ⟨i 0, i 1, ValueIdx.eq_ix2 i⟩
  exact cell_at x0 x1 x2 x3 x4 x5 x6 x7 x8 r o

end Cert.Cell.Ref

end
-- ==== Proof.lean ====
/-
  One step of a time-aware recurrent cell, fused into one kernel, against its reference.

  Both programs compute, for each of 65536 batch rows and 256 hidden units, a candidate state
  s = tanh (h·Wh₀ᵀ + x·Wx₀ᵀ + δ·Wstᵀ + b₀), five gates gⱼ = h·Wh_{j+1}ᵀ + x·Wx_{j+1}ᵀ + s·Ws_jᵀ + b_{j+1}, the new cell
  state c' = σ(g₀)·c + σ(g₁)·tanh(g₃) + σ(g₂)·s and the new hidden state h' = σ(g₄)·tanh(c') (Proof/Spec.lean).
  The kernel lays the gates' weight matrices side by side and takes three large matrix products per tile of 512 rows;
  the reference takes one batched contraction per weight tensor with the weight as the left factor. On the extended
  reals a matrix product is the sum over the contracted coordinate of the products, multiplication commutes, a change
  of float format is the identity, and the kernel's logistic operation is the reference's 1 / (1 + e^(−x)) by
  definition; so the two programs' results are the same function of the arguments, index by index, and no input needs
  to be finite for that.
  - Proof/KernelPoint.lean: one grid point's stored blocks at an element are the specification's states;
  - Proof/HostWeights.lean: the re-laid weights as the kernel's region finds them;
  - Proof/KernelBlocks.lean: the 128 blocks written back cover the two results, whence the kernel program's run;
  - Proof/Reference.lean: the reference program's two results are the specification's arrays.
  The three frames are the generated frame runs; the idealization rewrote nothing, so it preserves trivially.
-/
import proofs.«136221_j57784490000883_2_alg».proof.Defs
import proofs.«136221_j57784490000883_2_alg».proof.Proof.Gen.Kernel
import proofs.«136221_j57784490000883_2_alg».proof.Proof.Gen.Kernel.Skeleton
import proofs.«136221_j57784490000883_2_alg».proof.Proof.Gen.Kernel.Launch
import proofs.«136221_j57784490000883_2_alg».proof.Proof.Gen.Kernel.Points
import proofs.«136221_j57784490000883_2_alg».proof.Proof.Gen.Kernel.Frame
import proofs.«136221_j57784490000883_2_alg».proof.Proof.Gen.KernelIdeal
import proofs.«136221_j57784490000883_2_alg».proof.Proof.Gen.KernelIdeal.Skeleton
import proofs.«136221_j57784490000883_2_alg».proof.Proof.Gen.KernelIdeal.Launch
import proofs.«136221_j57784490000883_2_alg».proof.Proof.Gen.KernelIdeal.Points
import proofs.«136221_j57784490000883_2_alg».proof.Proof.Gen.KernelIdeal.Frame
import proofs.«136221_j57784490000883_2_alg».proof.Proof.Gen.ReferenceIdeal
import proofs.«136221_j57784490000883_2_alg».proof.Proof.Gen.Pre_finite_inputs
import proofs.«136221_j57784490000883_2_alg».proof.Proof.Gen.KernelIdeal.Value
import proofs.«136221_j57784490000883_2_alg».proof.Proof.Gen.ReferenceIdeal.Run
import proofs.«136221_j57784490000883_2_alg».proof.Proof.Gen.ReferenceIdeal.Read
import proofs.«136221_j57784490000883_2_alg».proof.Proof.KernelBlocks
import proofs.«136221_j57784490000883_2_alg».proof.Proof.Reference
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

/-- The kernel program ends with its two results at the specification's arrays of its arguments; the reference
    program, run from arguments that agree, ends with its two results at the same arrays. -/
theorem algebraic : Cert.algebraic_KernelIdeal_ReferenceIdeal := by
  intro m ρ m' ρ' _ hagree
  refine ⟨_, _, Cert.Cell.Blocks.run m ρ, ?_⟩
  refine (θ_run Cert.ReferenceIdeal.defs _ _).mono (fun _ h c => ?_) (Cert.ReferenceIdeal.Value.run (F := Ideal) m' ρ')
  obtain ⟨a0, a1, a2, a3, a4, a5, a6, a7, a8⟩ := hagree c
  refine ⟨(h c).1.trans ?_, (h c).2.1.trans ?_, (h c).2.2⟩
  · rw [Cert.ReferenceIdeal.Read.val_main_v69_eq, Cert.Cell.Ref.hidden_eq, a0, a1, a2, a3, a4, a5, a6, a7, a8]
  · rw [Cert.ReferenceIdeal.Read.val_main_v67_eq, Cert.Cell.Ref.cell_eq, a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
